-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x256 : Shape := ⟨2, ![512, 256]⟩
abbrev S256x128 : Shape := ⟨2, ![256, 128]⟩
abbrev S262144 : Shape := ⟨1, ![262144]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  main_v18

def fn {F : FTy → Type} [FloatOps F] (main_arg0 : FVec F S8192x512 .f32) (main_arg1 : FVec F S512x256 .f32) (main_arg2 : FVec F S256x128 .f32) (main_arg3 : FVec F S262144 .f32) (main_arg4 : IVec S262144 32) (main_arg5 : IVec S262144 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_v13 main_v16
-- ==== Kernel.lean ====
abbrev S8192x512 : Shape := ⟨2, ![8192, 512]⟩
abbrev S512x256 : Shape := ⟨2, ![512, 256]⟩
abbrev S256x128 : Shape := ⟨2, ![256, 128]⟩
abbrev S262144 : Shape := ⟨1, ![262144]⟩
abbrev S8192x256 : Shape := ⟨2, ![8192, 256]⟩
abbrev S1024x512 : Shape := ⟨2, ![1024, 512]⟩
abbrev S1024x256 : Shape := ⟨2, ![1024, 256]⟩
abbrev S262144x1 : Shape := ⟨2, ![262144, 1]⟩
abbrev S_ : Shape := ⟨0, ![]⟩
abbrev S262144x256 : Shape := ⟨2, ![262144, 256]⟩
abbrev S8192x128 : Shape := ⟨2, ![8192, 128]⟩
abbrev S1024x128 : Shape := ⟨2, ![1024, 128]⟩
abbrev S262144x128 : Shape := ⟨2, ![262144, 128]⟩
abbrev S2x8192x8192 : Shape := ⟨3, ![2, 8192, 8192]⟩
abbrev S2x1024x1024 : Shape := ⟨3, ![2, 1024, 1024]⟩
abbrev S128x1024 : Shape := ⟨2, ![128, 1024]⟩
abbrev S1024x1024 : Shape := ⟨2, ![1024, 1024]⟩
abbrev S1x1024x1024 : Shape := ⟨3, ![1, 1024, 1024]⟩

abbrev nBuf : Space → Nat
  | .hbm => 47
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256x128, .f32⟩
  | .hbm, ⟨3, _⟩ => ⟨S262144, .f32⟩
  | .hbm, ⟨4, _⟩ => ⟨S262144, .i32⟩
  | .hbm, ⟨5, _⟩ => ⟨S262144, .i32⟩
  | .hbm, ⟨6, _⟩ => ⟨S8192x256, .f32⟩
  | .hbm, ⟨7, _⟩ => ⟨S262144x1, .f32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S8192x256, .f32⟩
  | .hbm, ⟨21, _⟩ => ⟨S262144x1, .i32⟩
  | .hbm, ⟨22, _⟩ => ⟨S8192x256, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S8192x128, .f32⟩
  | .hbm, ⟨27, _⟩ => ⟨S262144x1, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S_, .f32⟩
  | .hbm, ⟨40, _⟩ => ⟨S8192x128, .f32⟩
  | .hbm, ⟨41, _⟩ => ⟨S262144x1, .i32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S2x8192x8192, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S2x1024x1024, .f32⟩
  | .local _ .vmem, ⟨15, _⟩ => ⟨S2x1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  shapeCasts_S1024x128_S1024x128 : S1024x128.ShapeCasts S1024x128
  transposes_S1024x128_p1_0_S128x1024 : S1024x128.Transposes [1, 0] S128x1024
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S2x1024x1024_S1x1024x1024_1_0_0 : ∀ a, (![1, 0, 0] : Fin 3 → Nat) a + S1x1024x1024.size a ≤ S2x1024x1024.size a
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x128_S1024x128_1_0_0_1_n_n_wf : DotDims.WF S1024x256 S256x128 S1024x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2x1024x1024.size a ≤ S2x8192x8192.size a
  hwx2_2 : ∀ i : grid2.Coords, EltTy.bits .f32 = 32 ∨ (Rect.block (s := S2x8192x8192) S2x1024x1024.size (cc2_transform_2 i) (hinb2_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v29) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S512x256 : Shape := ⟨2, ![512, 256]⟩
abbrev S256x128 : Shape := ⟨2, ![256, 128]⟩
abbrev S262144 : Shape := ⟨1, ![262144]⟩
abbrev S8192x256 : Shape := ⟨2, ![8192, 256]⟩
abbrev S262144x1 : Shape := ⟨2, ![262144, 1]⟩
abbrev S_ : Shape := ⟨0, ![]⟩
abbrev S262144x256 : Shape := ⟨2, ![262144, 256]⟩
abbrev S8192x128 : Shape := ⟨2, ![8192, 128]⟩
abbrev S262144x128 : Shape := ⟨2, ![262144, 128]⟩
abbrev S128x8192 : Shape := ⟨2, ![128, 8192]⟩
abbrev S8192x8192 : Shape := ⟨2, ![8192, 8192]⟩
abbrev S1x8192x8192 : Shape := ⟨3, ![1, 8192, 8192]⟩
abbrev S2x8192x8192 : Shape := ⟨3, ![2, 8192, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256x128, .f32⟩
  | .hbm, ⟨3, _⟩ => ⟨S262144, .f32⟩
  | .hbm, ⟨4, _⟩ => ⟨S262144, .i32⟩
  | .hbm, ⟨5, _⟩ => ⟨S262144, .i32⟩
  | .hbm, ⟨6, _⟩ => ⟨S8192x256, .f32⟩
  | .hbm, ⟨7, _⟩ => ⟨S262144x1, .f32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S8192x256, .f32⟩
  | .hbm, ⟨21, _⟩ => ⟨S262144x1, .i32⟩
  | .hbm, ⟨22, _⟩ => ⟨S8192x256, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S8192x128, .f32⟩
  | .hbm, ⟨27, _⟩ => ⟨S262144x1, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S_, .f32⟩
  | .hbm, ⟨40, _⟩ => ⟨S8192x128, .f32⟩
  | .hbm, ⟨41, _⟩ => ⟨S262144x1, .i32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S128x8192, .f32⟩
  | .hbm, ⟨47, _⟩ => ⟨S8192x8192, .f32⟩
  | .hbm, ⟨48, _⟩ => ⟨S1x8192x8192, .f32⟩
  | .hbm, ⟨49, _⟩ => ⟨S1x8192x8192, .f32⟩
  | .hbm, ⟨50, _⟩ => ⟨S2x8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  transposes_S8192x128_S128x8192_1_0 : S8192x128.Transposes [1, 0] S128x8192
  bcast_S8192x8192_S1x8192x8192_1_2 : S8192x8192.BroadcastsInDim S1x8192x8192 (![1, 2] : Fin 2 → Fin S1x8192x8192.rank)
  concatenates_S1x8192x8192_S1x8192x8192_S2x8192x8192_d0 : Shape.Concatenates [S1x8192x8192, S1x8192x8192] S2x8192x8192 0
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x8192_S8192x8192_1_0_0_1_n_n_wf : DotDims.WF S8192x128 S128x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBody.lean ====
/-
  The three Pallas calls of the kernel program as printed (read at the word level), one at a time, at ANY contents `V` of the
  TensorCore's buffers when the call is entered.

  Call 0 multiplies a 1024-row block of `x` [8192, 512] by the whole of `W1` [512, 256]; call 1 a 1024-row block of the
  hidden layer [8192, 256] by the whole of `W2` [256, 128]; call 2 a 1024-row block of the embedding `z` [8192, 128] by the
  transpose of another 1024-row block of the same `z`, and stores the [1024, 1024] tile twice, into slab 0 and slab 1 of
  its [2, 1024, 1024] output block. For each call: what a window's block is at a grid point; that an input's staging
  buffer holds that block at every point (fetched there or kept from the point before); what the body leaves in the
  output block as a function of the loaded blocks; the body's run; and the bookkeeping record the pipeline rule takes.
  In call 2 both input windows read one array, so each holds half of it.
-/
import proofs.«135062_j65274912964665_1_alg».proof.Proof.Gen.Kernel.Launch
import proofs.«135062_j65274912964665_1_alg».proof.Proof.Gen.Kernel.Skeleton
import proofs.«135062_j65274912964665_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Pallas call 0: one row block of the left operand times the whole right operand -/

/-- Window `w`'s block at grid point `t`, read off the window's array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's staging buffer holds its block at every point. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole right operand's staging buffer holds it at every point, though it is fetched once only. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

abbrev ra0 : Rect S1024x512 := Rect.unit (s := S1024x512) ![0, 0] S1024x512.size inb_S1024x512_S1024x512_0_0
abbrev rb0 : Rect S512x256 := Rect.unit (s := S512x256) ![0, 0] S512x256.size inb_S512x256_S512x256_0_0
abbrev ro0 : Rect S1024x256 := Rect.unit (s := S1024x256) ![0, 0] S1024x256.size inb_S1024x256_S1024x256_0_0

/-- What the body leaves in the output block: the product of the two loaded operands, stored over the whole block. -/
def res0 (x0 : Vec F S1024x512 .f32) (x1 : Vec F S512x256 .f32) : Vec F S1024x256 .f32 :=
  View.canon [⟨ro0, k0_pay1 (View.ld x0 ra0) (View.ld x1 rb0)⟩]

/-- The one store covers the output block. -/
theorem cover0 (p0 : Vec F S1024x256 .f32) (y : S1024x256.Idx) :
    ∃ pc ∈ ([⟨ro0, p0⟩] : List (View.Piece (Elt F) S1024x256 .f32)), y ∈ pc.1.set :=
  View.cover_of_tiled [⟨ro0, p0⟩] S1024x256.size (by rfl) y

set_option maxHeartbeats 1000000 in
/-- The body run on whole staging buffers: the operands' buffers are read and kept, the output's ends at `res0`. -/
theorem body_triple0 (c : Dev nD) (E : Set ℕ) (i : grid0.Coords) (arg1 : Memref sig .tc .vmem S1024x512 .f32) (harg1 : arg1.IsWhole)
    (arg2 : Memref sig .tc .vmem S512x256 .f32) (harg2 : arg2.IsWhole) (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (res0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The pipeline's bookkeeping for this call on core `c`: the arrays as found; after the body each operand's buffer
    still at its block and the output's at the product of the two blocks; nothing owed, full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = res0 (blk0 V c 0 t) (blk0 V c 1 t) := by dsimp only [dat0]
theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body_triple0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-! ## Pallas call 1: one row block of the left operand times the whole right operand -/

/-- Window `w`'s block at grid point `t`, read off the window's array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's staging buffer holds its block at every point. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The whole right operand's staging buffer holds it at every point, though it is fetched once only. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

abbrev ra1 : Rect S1024x256 := Rect.unit (s := S1024x256) ![0, 0] S1024x256.size inb_S1024x256_S1024x256_0_0
abbrev rb1 : Rect S256x128 := Rect.unit (s := S256x128) ![0, 0] S256x128.size inb_S256x128_S256x128_0_0
abbrev ro1 : Rect S1024x128 := Rect.unit (s := S1024x128) ![0, 0] S1024x128.size inb_S1024x128_S1024x128_0_0

/-- What the body leaves in the output block: the product of the two loaded operands, stored over the whole block. -/
def res1 (x0 : Vec F S1024x256 .f32) (x1 : Vec F S256x128 .f32) : Vec F S1024x128 .f32 :=
  View.canon [⟨ro1, k1_pay1 (View.ld x0 ra1) (View.ld x1 rb1)⟩]

/-- The one store covers the output block. -/
theorem cover1 (p0 : Vec F S1024x128 .f32) (y : S1024x128.Idx) :
    ∃ pc ∈ ([⟨ro1, p0⟩] : List (View.Piece (Elt F) S1024x128 .f32)), y ∈ pc.1.set :=
  View.cover_of_tiled [⟨ro1, p0⟩] S1024x128.size (by rfl) y

set_option maxHeartbeats 1000000 in
/-- The body run on whole staging buffers: the operands' buffers are read and kept, the output's ends at `res1`. -/
theorem body_triple1 (c : Dev nD) (E : Set ℕ) (i : grid1.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (res1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The pipeline's bookkeeping for this call on core `c`: the arrays as found; after the body each operand's buffer
    still at its block and the output's at the product of the two blocks; nothing owed, full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = res1 (blk1 V c 0 t) (blk1 V c 1 t) := by dsimp only [dat1]
theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body_triple1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-! ## Pallas call 2: a row block times the transpose of another row block of the same array, written to both slabs -/

/-- Window `w`'s block at grid point `t`, read off the window's array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left row block's staging buffer holds its block at every point, fetched there or not. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The right row block's staging buffer holds its block at every point. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

abbrev ra2 : Rect S1024x128 := Rect.unit (s := S1024x128) ![0, 0] S1024x128.size inb_S1024x128_S1024x128_0_0
abbrev ro2a : Rect S2x1024x1024 := Rect.unit (s := S2x1024x1024) ![0, 0, 0] S1x1024x1024.size inb_S2x1024x1024_S1x1024x1024_0_0_0
abbrev ro2b : Rect S2x1024x1024 := Rect.unit (s := S2x1024x1024) ![1, 0, 0] S1x1024x1024.size inb_S2x1024x1024_S1x1024x1024_1_0_0

/-- What the body leaves in the output block: the product tile stored into slab 0 and again into slab 1 (later store first). -/
def res2 (x0 : Vec F S1024x128 .f32) (x1 : Vec F S1024x128 .f32) : Vec F S2x1024x1024 .f32 :=
  View.canon [⟨ro2b, k2_pay3 (View.ld x0 ra2) (View.ld x1 ra2)⟩, ⟨ro2a, k2_pay2 (View.ld x0 ra2) (View.ld x1 ra2)⟩]

/-- The two slab stores tile the output block. -/
theorem cover2 (p1 p0 : Vec F S1x1024x1024 .f32) (y : S2x1024x1024.Idx) :
    ∃ pc ∈ ([⟨ro2b, p1⟩, ⟨ro2a, p0⟩] : List (View.Piece (Elt F) S2x1024x1024 .f32)), y ∈ pc.1.set :=
  View.cover_of_tiled [⟨ro2b, p1⟩, ⟨ro2a, p0⟩] S1x1024x1024.size (by rfl) y

set_option maxHeartbeats 1000000 in
/-- The body run on whole staging buffers: the two row blocks are read and kept, the output's buffer ends at `res2`. -/
theorem body_triple2 (c : Dev nD) (E : Set ℕ) (i : grid2.Coords) (arg2 : Memref sig .tc .vmem S1024x128 .f32) (harg2 : arg2.IsWhole)
    (arg3 : Memref sig .tc .vmem S1024x128 .f32) (harg3 : arg3.IsWhole) (arg4 : Memref sig .tc .vmem S2x1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (res2 x0 x1)) -∗ K ⟨⟩))
      ⊢ wp frame (wpE (defs₀ (F := F)) Variants.none c none) E (cc2__inner_product_kernel i arg2 harg2 arg3 harg3 arg4 harg4) K := by
  simp only [cc2__inner_product_kernel_eq_skeleton]; unfold cc2__inner_product_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _ _)

/-- The pipeline's bookkeeping for this call on core `c`. The two input windows read ONE array, so each holds half of
    it (the left and the right half share); the output is held outright. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = res2 (blk2 V c 0 t) (blk2 V c 1 t) := by dsimp only [dat2]
theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (body_triple2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Body

end
-- ==== Proof.KRun.lean ====
/-
  The run of the kernel program as printed from launch to return: its three Pallas calls and the host operations
  between them (a gather of rows by column index, a scaling by the edge values, a scatter-add by row index, a
  rectifier, twice) as seven items in order, each entered from what the one before it left.

  `W0 … W7` are the contents of every unscoped buffer at the eight boundaries: a Pallas call replaces its output array
  by what its write-backs leave and keeps everything else; a host stretch applies its operations. The third call reads
  the embedding through two windows, so at its entry the embedding's buffer is split into two half shares and at its exit
  the halves, unchanged, are joined again. `run_all`: every weakly fair execution terminates without a fault, and every
  unscoped buffer ends at `W7`.
-/
import proofs.«135062_j65274912964665_1_alg».proof.Proof.KBody
import proofs.«135062_j65274912964665_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items of the program -/

/-- Core `c`'s buffers at launch (Pallas call 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After Pallas call 0: its arrays at what its write-backs leave, every other buffer as the call found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first sparse aggregation (gather, scale, scatter-add). -/
abbrev W2 : Dev nD → Valuation τ sig (Elt F) := fun c => StableHlo.after hostOps1 (W1 m ρ c)
/-- After the rectifier (Pallas call 1's entry). -/
abbrev W3 : Dev nD → Valuation τ sig (Elt F) := fun c => StableHlo.after hostOps1_1 (W2 m ρ c)
abbrev V3 : (c : Dev nD) → (b : Ref sig .tc) → Buf (Elt F) ((c : Thread nD τ).loc b) := fun c b => W3 m ρ c b

/-- After Pallas call 1: its arrays at what its write-backs leave, every other buffer as the call found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the second sparse aggregation. -/
abbrev W5 : Dev nD → Valuation τ sig (Elt F) := fun c => StableHlo.after hostOps2 (W4 m ρ c)
/-- After the second rectifier (Pallas call 2's entry). -/
abbrev W6 : Dev nD → Valuation τ sig (Elt F) := fun c => StableHlo.after hostOps2_1 (W5 m ρ c)
abbrev V6 : (c : Dev nD) → (b : Ref sig .tc) → Buf (Elt F) ((c : Thread nD τ).loc b) := fun c b => W6 m ρ c b
/-- After Pallas call 2: its output array at what its write-backs leave; the embedding it reads twice, and every
    other buffer, as the call found them. -/
def W7 (c : Dev nD) : Valuation τ sig (Elt F) :=
  Function.update (W6 m ρ c) (Proc.devRef .tc main_v30) ((dat2 (V6 m ρ) c).arrAt 2 cfg2.N)
theorem W7_out (c : Dev nD) : W7 m ρ c (Proc.devRef .tc main_v30) = (dat2 (V6 m ρ) c).arrAt 2 cfg2.N := by
  unfold W7; exact Function.update_self ..
theorem W7_of_ne (c : Dev nD) (b : Ref sig .tc) (hb : b ≠ main_v30) :
    W7 m ρ c (Proc.devRef .tc b) = W6 m ρ c (Proc.devRef .tc b) := by
  unfold W7; exact Function.update_of_ne (StableHlo.devRef_ne_of_ne hb) ..
abbrev V7 : (c : Dev nD) → (b : Ref sig .tc) → Buf (Elt F) ((c : Thread nD τ).loc b) := fun c b => W7 m ρ c b

/-! ## The bookkeeping family and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
  | ⟨2, _⟩ => fun c => dat2 (V6 m ρ) c
abbrev 𝒱₀ : Variants := Variants.none
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`: every unscoped buffer at `W7`, the generator register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Pallas call 0 as a segment: entered from every unscoped buffer at `W0`, left at `W1`. Its arrays are split out of
    the unscoped buffers at entry and put back at what the write-backs leave at exit; the generator register passes
    through the call's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered from every unscoped buffer at `W3`, left at `W4`. Its arrays are split out of
    the unscoped buffers at entry and put back at what the write-backs leave at exit; the generator register passes
    through the call's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Pallas call 2's arrays: one buffer read through two windows -/

/-- The call's arrays, window by window: the embedding's buffer at the left half share and again at the right half
    share, the output's buffer outright. -/
theorem arrays2_eq (c : Dev nD) (Fn : (w : Fin cfg2.W) → Buf (Elt F) ((cfg2.win w).arr.view.loc (c : Thread nD τ))) :
    ((dat2 (V6 m ρ) c).arrays Fn : sProp 𝕄)
      = iprop((((cfg2.win 0).arr.view.loc (c : Thread nD τ)) ↦{fullShare.left} Fn 0)
          ∗ (((cfg2.win 1).arr.view.loc (c : Thread nD τ)) ↦{fullShare.right} Fn 1)
          ∗ (((cfg2.win 2).arr.view.loc (c : Thread nD τ)) ↦{fullShare} Fn 2)) := by
  unfold Dat.arrays
  rw [bigSep_W2, (arr_whole2 0).set_eq_univ, (arr_whole2 2).set_eq_univ]
  rfl

/-- A core's unscoped buffers at `V`: the embedding's, the decoder output's, and the rest. -/
theorem unscoped_split2 (c : Dev nD) (V : (b : Ref sig .tc) → Buf (Elt F) ((c : Thread nD τ).loc b)) :
    (unscopedBufs c V : sProp 𝕄)
      = iprop(((((c : Thread nD τ).loc main_v29) ↦{fullShare} V main_v29) ∗ (((c : Thread nD τ).loc main_v30) ↦{fullShare} V main_v30))
          ∗ Pipeline.unscopedRest spec2 c V) := by
  have e : (unscopedBufs c V : sProp 𝕄) = iprop(Pipeline.arrBufs spec2 c V ∗ Pipeline.unscopedRest spec2 c V) :=
    Pipeline.unscopedBufs_split₀ cfgs 2 winFacts₀2.arr_unscoped c V
  rw [e]; unfold Pipeline.arrBufs
  rw [show Finset.univ.image (Pipeline.arrRef spec2) = {main_v29, main_v30} from by decide, bigSep_insert (by decide), bigSep_singleton]
  rfl

/-- ENTRY: the embedding's buffer is split into its two half shares, one per window that reads it. -/
theorem entry2 (c : Dev nD) :
    (StableHlo.held (c : Thread nD τ) (Pipeline.ucRefs τ sig) (W6 m ρ c) : sProp 𝕄)
      ⊢ iprop((dat2 (V6 m ρ) c).arrays ((dat2 (V6 m ρ) c).arrAt · 0) ∗ Pipeline.unscopedRest spec2 c (V6 m ρ c)) := by
  rw [← Pipeline.unscopedBufs_held c (W6 m ρ c), unscoped_split2, arrays2_eq]
  iintro ⟨⟨H29, H30⟩, Hrest⟩
  isplitr [Hrest]; swap; · iexact Hrest
  ihave Hs := (pointsTo_share (PosShare.mem_left_op_right fullShare)).1 $$ H29
  icases Hs with ⟨Hl, Hr⟩
  isplitl [Hl]; · iexact Hl
  isplitl [Hr]; · iexact Hr
  iexact H30

/-- EXIT: the two half shares of the embedding's buffer, still at its entry contents, are joined; the output's
    buffer holds what the write-backs left. -/
theorem exit2 (c : Dev nD) :
    iprop((dat2 (V6 m ρ) c).arrays ((dat2 (V6 m ρ) c).arrAt · cfg2.N) ∗ Pipeline.unscopedRest spec2 c (V6 m ρ c))
      ⊢ (StableHlo.held (c : Thread nD τ) (Pipeline.ucRefs τ sig) (W7 m ρ c) : sProp 𝕄) := by
  have hrest : (Pipeline.unscopedRest spec2 c (V7 m ρ c) : sProp 𝕄) = Pipeline.unscopedRest spec2 c (V6 m ρ c) := by
    unfold Pipeline.unscopedRest
    exact bigSep_congr fun b hb => by
      rw [show V7 m ρ c b = V6 m ρ c b from W7_of_ne m ρ c b (fun e => (Finset.mem_sdiff.mp hb).2 (e ▸ by decide))]
  rw [← Pipeline.unscopedBufs_held c (W7 m ρ c), unscoped_split2, arrays2_eq, hrest,
    (dat2 (V6 m ρ) c).arrAt_in 0 rfl cfg2.N, (dat2 (V6 m ρ) c).arrAt_in 1 rfl cfg2.N,
    W7_of_ne m ρ c main_v29 (by decide), W7_out m ρ c]
  iintro ⟨⟨Hl, Hr, H30⟩, Hrest⟩
  isplitr [Hrest]; swap; · iexact Hrest
  isplitl [Hl Hr]
  · iapply (pointsTo_share (PosShare.mem_left_op_right fullShare)).2
    isplitl [Hl]; · iexact Hl
    iexact Hr
  · iexact H30

set_option backward.isDefEq.respectTransparency.types false in
/-- Pallas call 2 as a segment: entered from every unscoped buffer at `W6`, left at `W7`. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := entry2 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V6 m ρ c))
        ⊢ (StableHlo.held (c : Thread nD τ) (Pipeline.ucRefs τ sig) (W7 m ρ c) : sProp 𝕄) := exit2 m ρ c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ),
    .host (hseg hostOps2 hostOps2_sub hostOps2_fresh (W4 m ρ)),
    .host (hseg hostOps2_1 hostOps2_1_sub hostOps2_1_fresh (W5 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores
    terminates, nothing faulting, and in every final state each unscoped buffer of each core holds `W7`: the launch
    contents pushed through the three Pallas calls and the host operations between them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Run

end
-- ==== Proof.KKept.lean ====
import proofs.«135062_j65274912964665_1_alg».proof.Proof.KRun

/-!
# The argument arrays are never written

No host operation of the program writes an argument array, and a Pallas call only reads one through an input
window, whose array its write-backs never touch. So the contents `W7` of an argument's buffer after the whole run, walked
back boundary by boundary, are its launch contents; with the run this is the frame property: the program terminates
without a fault and its argument arrays end unchanged.
-/

set_option maxRecDepth 16384

noncomputable section

namespace Cert.Kernel.Kept

open Idealize.ShloMosaic Idealize.ShloMosaic.TcCoe Idealize.SL.Sem
open Idealize.ShloMosaic.Pipeline (Dat)
open Cert.Kernel Cert.Kernel.Gen Cert.Kernel.Body Cert.Kernel.Run

variable {F : FTy → Type} [FloatOps F]
variable (m : (ℓ : Loc nD τ sig) → Buf (Elt F) ℓ) (ρ : Dev nD → PrngReg)

/-- Through the second aggregation and rectifier: a buffer neither writes is as Pallas call 1 left it. -/
theorem W6_of (c : Dev nD) (r : Ref sig .tc) (h6 : r ∉ hostOps2_1_W) (h5 : r ∉ hostOps2_W) :
    W6 m ρ c (Proc.devRef .tc r) = W4 m ρ c (Proc.devRef .tc r) :=
  (StableHlo.after_of_writes_sub hostOps2_1 _ hostOps2_1_writes h6).trans (StableHlo.after_of_writes_sub hostOps2 _ hostOps2_writes h5)

/-- Through the first aggregation and rectifier: a buffer neither writes is as Pallas call 0 left it. -/
theorem W3_of (c : Dev nD) (r : Ref sig .tc) (h3 : r ∉ hostOps1_1_W) (h2 : r ∉ hostOps1_W) :
    W3 m ρ c (Proc.devRef .tc r) = W1 m ρ c (Proc.devRef .tc r) :=
  (StableHlo.after_of_writes_sub hostOps1_1 _ hostOps1_1_writes h3).trans (StableHlo.after_of_writes_sub hostOps1 _ hostOps1_writes h2)

/-- An input window's array is as Pallas call 1 found it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- An input window's array is as Pallas call 0 found it. -/
theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))

theorem W7_main_arg0 (c : Dev nD) : W7 m ρ c (Proc.devRef .tc main_arg0) = m ((c : Thread nD τ).loc main_arg0) :=
  (W7_of_ne m ρ c main_arg0 (by decide)).trans <| (W6_of m ρ c main_arg0 (by decide) (by decide)).trans <|
    (W4_of_ne m ρ c main_arg0 (by decide)).trans <| (W3_of m ρ c main_arg0 (by decide) (by decide)).trans <| (W1_in m ρ c 0 rfl).trans rfl
theorem W7_main_arg1 (c : Dev nD) : W7 m ρ c (Proc.devRef .tc main_arg1) = m ((c : Thread nD τ).loc main_arg1) :=
  (W7_of_ne m ρ c main_arg1 (by decide)).trans <| (W6_of m ρ c main_arg1 (by decide) (by decide)).trans <|
    (W4_of_ne m ρ c main_arg1 (by decide)).trans <| (W3_of m ρ c main_arg1 (by decide) (by decide)).trans <| (W1_in m ρ c 1 rfl).trans rfl
theorem W7_main_arg2 (c : Dev nD) : W7 m ρ c (Proc.devRef .tc main_arg2) = m ((c : Thread nD τ).loc main_arg2) :=
  (W7_of_ne m ρ c main_arg2 (by decide)).trans <| (W6_of m ρ c main_arg2 (by decide) (by decide)).trans <|
    (W4_in m ρ c 1 rfl).trans <| (W3_of m ρ c main_arg2 (by decide) (by decide)).trans <| (W1_of_ne m ρ c main_arg2 (by decide)).trans rfl
theorem W7_main_arg3 (c : Dev nD) : W7 m ρ c (Proc.devRef .tc main_arg3) = m ((c : Thread nD τ).loc main_arg3) :=
  (W7_of_ne m ρ c main_arg3 (by decide)).trans <| (W6_of m ρ c main_arg3 (by decide) (by decide)).trans <|
    (W4_of_ne m ρ c main_arg3 (by decide)).trans <| (W3_of m ρ c main_arg3 (by decide) (by decide)).trans <| (W1_of_ne m ρ c main_arg3 (by decide)).trans rfl
theorem W7_main_arg4 (c : Dev nD) : W7 m ρ c (Proc.devRef .tc main_arg4) = m ((c : Thread nD τ).loc main_arg4) :=
  (W7_of_ne m ρ c main_arg4 (by decide)).trans <| (W6_of m ρ c main_arg4 (by decide) (by decide)).trans <|
    (W4_of_ne m ρ c main_arg4 (by decide)).trans <| (W3_of m ρ c main_arg4 (by decide) (by decide)).trans <| (W1_of_ne m ρ c main_arg4 (by decide)).trans rfl
theorem W7_main_arg5 (c : Dev nD) : W7 m ρ c (Proc.devRef .tc main_arg5) = m ((c : Thread nD τ).loc main_arg5) :=
  (W7_of_ne m ρ c main_arg5 (by decide)).trans <| (W6_of m ρ c main_arg5 (by decide) (by decide)).trans <|
    (W4_of_ne m ρ c main_arg5 (by decide)).trans <| (W3_of m ρ c main_arg5 (by decide) (by decide)).trans <| (W1_of_ne m ρ c main_arg5 (by decide)).trans rfl

/-- THE FRAME: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c)⟩)
    (run_all m ρ)

end Cert.Kernel.Kept

end
-- ==== Proof.KIBody.lean ====
/-
  The three Pallas calls of the idealized kernel program, one at a time, at ANY contents `V` of the
  TensorCore's buffers when the call is entered.

  Call 0 multiplies a 1024-row block of `x` [8192, 512] by the whole of `W1` [512, 256]; call 1 a 1024-row block of the
  hidden layer [8192, 256] by the whole of `W2` [256, 128]; call 2 a 1024-row block of the embedding `z` [8192, 128] by the
  transpose of another 1024-row block of the same `z`, and stores the [1024, 1024] tile twice, into slab 0 and slab 1 of
  its [2, 1024, 1024] output block. For each call: what a window's block is at a grid point; that an input's staging
  buffer holds that block at every point (fetched there or kept from the point before); what the body leaves in the
  output block as a function of the loaded blocks; the body's run; and the bookkeeping record the pipeline rule takes.
  In call 2 both input windows read one array, so each holds half of it.
-/
import proofs.«135062_j65274912964665_1_alg».proof.Proof.Gen.KernelIdeal.Launch
import proofs.«135062_j65274912964665_1_alg».proof.Proof.Gen.KernelIdeal.Skeleton
import proofs.«135062_j65274912964665_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Pallas call 0: one row block of the left operand times the whole right operand -/

/-- Window `w`'s block at grid point `t`, read off the window's array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's staging buffer holds its block at every point. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole right operand's staging buffer holds it at every point, though it is fetched once only. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

abbrev ra0 : Rect S1024x512 := Rect.unit (s := S1024x512) ![0, 0] S1024x512.size inb_S1024x512_S1024x512_0_0
abbrev rb0 : Rect S512x256 := Rect.unit (s := S512x256) ![0, 0] S512x256.size inb_S512x256_S512x256_0_0
abbrev ro0 : Rect S1024x256 := Rect.unit (s := S1024x256) ![0, 0] S1024x256.size inb_S1024x256_S1024x256_0_0

/-- What the body leaves in the output block: the product of the two loaded operands, stored over the whole block. -/
def res0 (x0 : Vec F S1024x512 .f32) (x1 : Vec F S512x256 .f32) : Vec F S1024x256 .f32 :=
  View.canon [⟨ro0, k0_pay1 (View.ld x0 ra0) (View.ld x1 rb0)⟩]

/-- The one store covers the output block. -/
theorem cover0 (p0 : Vec F S1024x256 .f32) (y : S1024x256.Idx) :
    ∃ pc ∈ ([⟨ro0, p0⟩] : List (View.Piece (Elt F) S1024x256 .f32)), y ∈ pc.1.set :=
  View.cover_of_tiled [⟨ro0, p0⟩] S1024x256.size (by rfl) y

set_option maxHeartbeats 1000000 in
/-- The body run on whole staging buffers: the operands' buffers are read and kept, the output's ends at `res0`. -/
theorem body_triple0 (c : Dev nD) (E : Set ℕ) (i : grid0.Coords) (arg1 : Memref sig .tc .vmem S1024x512 .f32) (harg1 : arg1.IsWhole)
    (arg2 : Memref sig .tc .vmem S512x256 .f32) (harg2 : arg2.IsWhole) (arg3 : Memref sig .tc .vmem S1024x256 .f32) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (res0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The pipeline's bookkeeping for this call on core `c`: the arrays as found; after the body each operand's buffer
    still at its block and the output's at the product of the two blocks; nothing owed, full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = res0 (blk0 V c 0 t) (blk0 V c 1 t) := by dsimp only [dat0]
theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (body_triple0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-! ## Pallas call 1: one row block of the left operand times the whole right operand -/

/-- Window `w`'s block at grid point `t`, read off the window's array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's staging buffer holds its block at every point. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The whole right operand's staging buffer holds it at every point, though it is fetched once only. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

abbrev ra1 : Rect S1024x256 := Rect.unit (s := S1024x256) ![0, 0] S1024x256.size inb_S1024x256_S1024x256_0_0
abbrev rb1 : Rect S256x128 := Rect.unit (s := S256x128) ![0, 0] S256x128.size inb_S256x128_S256x128_0_0
abbrev ro1 : Rect S1024x128 := Rect.unit (s := S1024x128) ![0, 0] S1024x128.size inb_S1024x128_S1024x128_0_0

/-- What the body leaves in the output block: the product of the two loaded operands, stored over the whole block. -/
def res1 (x0 : Vec F S1024x256 .f32) (x1 : Vec F S256x128 .f32) : Vec F S1024x128 .f32 :=
  View.canon [⟨ro1, k1_pay1 (View.ld x0 ra1) (View.ld x1 rb1)⟩]

/-- The one store covers the output block. -/
theorem cover1 (p0 : Vec F S1024x128 .f32) (y : S1024x128.Idx) :
    ∃ pc ∈ ([⟨ro1, p0⟩] : List (View.Piece (Elt F) S1024x128 .f32)), y ∈ pc.1.set :=
  View.cover_of_tiled [⟨ro1, p0⟩] S1024x128.size (by rfl) y

set_option maxHeartbeats 1000000 in
/-- The body run on whole staging buffers: the operands' buffers are read and kept, the output's ends at `res1`. -/
theorem body_triple1 (c : Dev nD) (E : Set ℕ) (i : grid1.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (res1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The pipeline's bookkeeping for this call on core `c`: the arrays as found; after the body each operand's buffer
    still at its block and the output's at the product of the two blocks; nothing owed, full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = res1 (blk1 V c 0 t) (blk1 V c 1 t) := by dsimp only [dat1]
theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body_triple1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-! ## Pallas call 2: a row block times the transpose of another row block of the same array, written to both slabs -/

/-- Window `w`'s block at grid point `t`, read off the window's array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left row block's staging buffer holds its block at every point, fetched there or not. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The right row block's staging buffer holds its block at every point. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

abbrev ra2 : Rect S1024x128 := Rect.unit (s := S1024x128) ![0, 0] S1024x128.size inb_S1024x128_S1024x128_0_0
abbrev ro2a : Rect S2x1024x1024 := Rect.unit (s := S2x1024x1024) ![0, 0, 0] S1x1024x1024.size inb_S2x1024x1024_S1x1024x1024_0_0_0
abbrev ro2b : Rect S2x1024x1024 := Rect.unit (s := S2x1024x1024) ![1, 0, 0] S1x1024x1024.size inb_S2x1024x1024_S1x1024x1024_1_0_0

/-- What the body leaves in the output block: the product tile stored into slab 0 and again into slab 1 (later store first). -/
def res2 (x0 : Vec F S1024x128 .f32) (x1 : Vec F S1024x128 .f32) : Vec F S2x1024x1024 .f32 :=
  View.canon [⟨ro2b, k2_pay3 (View.ld x0 ra2) (View.ld x1 ra2)⟩, ⟨ro2a, k2_pay2 (View.ld x0 ra2) (View.ld x1 ra2)⟩]

/-- The two slab stores tile the output block. -/
theorem cover2 (p1 p0 : Vec F S1x1024x1024 .f32) (y : S2x1024x1024.Idx) :
    ∃ pc ∈ ([⟨ro2b, p1⟩, ⟨ro2a, p0⟩] : List (View.Piece (Elt F) S2x1024x1024 .f32)), y ∈ pc.1.set :=
  View.cover_of_tiled [⟨ro2b, p1⟩, ⟨ro2a, p0⟩] S1x1024x1024.size (by rfl) y

set_option maxHeartbeats 1000000 in
/-- The body run on whole staging buffers: the two row blocks are read and kept, the output's buffer ends at `res2`. -/
theorem body_triple2 (c : Dev nD) (E : Set ℕ) (i : grid2.Coords) (arg2 : Memref sig .tc .vmem S1024x128 .f32) (harg2 : arg2.IsWhole)
    (arg3 : Memref sig .tc .vmem S1024x128 .f32) (harg3 : arg3.IsWhole) (arg4 : Memref sig .tc .vmem S2x1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (res2 x0 x1)) -∗ K ⟨⟩))
      ⊢ wp frame (wpE (defs₀ (F := F)) Variants.none c none) E (cc2__inner_product_kernel i arg2 harg2 arg3 harg3 arg4 harg4) K := by
  simp only [cc2__inner_product_kernel_eq_skeleton]; unfold cc2__inner_product_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _ _)

/-- The pipeline's bookkeeping for this call on core `c`. The two input windows read ONE array, so each holds half of
    it (the left and the right half share); the output is held outright. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = res2 (blk2 V c 0 t) (blk2 V c 1 t) := by dsimp only [dat2]
theorem held2_0 (c : Dev nD) (t : Fin cfg2.N) (d) : (dat2 V c).before 0 t d = blk2 V c 0 t :=
  held2_0_of V (dat2 V c) (A_eq2 V c 0) (after2_0 V c) t d
theorem held2_1 (c : Dev nD) (t : Fin cfg2.N) (d) : (dat2 V c).before 1 t d = blk2 V c 1 t :=
  held2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [held2_0, held2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (body_triple2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Body

end
-- ==== Proof.KIRun.lean ====
/-
  The run of the idealized kernel program from launch to return: its three Pallas calls and the host operations
  between them (a gather of rows by column index, a scaling by the edge values, a scatter-add by row index, a
  rectifier, twice) as seven items in order, each entered from what the one before it left.

  `W0 … W7` are the contents of every unscoped buffer at the eight boundaries: a Pallas call replaces its output array
  by what its write-backs leave and keeps everything else; a host stretch applies its operations. The third call reads
  the embedding through two windows, so at its entry the embedding's buffer is split into two half shares and at its exit
  the halves, unchanged, are joined again. `run_all`: every weakly fair execution terminates without a fault, and every
  unscoped buffer ends at `W7`.
-/
import proofs.«135062_j65274912964665_1_alg».proof.Proof.KIBody
import proofs.«135062_j65274912964665_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between items of the program -/

/-- Core `c`'s buffers at launch (Pallas call 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After Pallas call 0: its arrays at what its write-backs leave, every other buffer as the call found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first sparse aggregation (gather, scale, scatter-add). -/
abbrev W2 : Dev nD → Valuation τ sig (Elt F) := fun c => StableHlo.after hostOps1 (W1 m ρ c)
/-- After the rectifier (Pallas call 1's entry). -/
abbrev W3 : Dev nD → Valuation τ sig (Elt F) := fun c => StableHlo.after hostOps1_1 (W2 m ρ c)
abbrev V3 : (c : Dev nD) → (b : Ref sig .tc) → Buf (Elt F) ((c : Thread nD τ).loc b) := fun c b => W3 m ρ c b

/-- After Pallas call 1: its arrays at what its write-backs leave, every other buffer as the call found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the second sparse aggregation. -/
abbrev W5 : Dev nD → Valuation τ sig (Elt F) := fun c => StableHlo.after hostOps2 (W4 m ρ c)
/-- After the second rectifier (Pallas call 2's entry). -/
abbrev W6 : Dev nD → Valuation τ sig (Elt F) := fun c => StableHlo.after hostOps2_1 (W5 m ρ c)
abbrev V6 : (c : Dev nD) → (b : Ref sig .tc) → Buf (Elt F) ((c : Thread nD τ).loc b) := fun c b => W6 m ρ c b
/-- After Pallas call 2: its output array at what its write-backs leave; the embedding it reads twice, and every
    other buffer, as the call found them. -/
def W7 (c : Dev nD) : Valuation τ sig (Elt F) :=
  Function.update (W6 m ρ c) (Proc.devRef .tc main_v30) ((dat2 (V6 m ρ) c).arrAt 2 cfg2.N)
theorem W7_out (c : Dev nD) : W7 m ρ c (Proc.devRef .tc main_v30) = (dat2 (V6 m ρ) c).arrAt 2 cfg2.N := by
  unfold W7; exact Function.update_self ..
theorem W7_of_ne (c : Dev nD) (b : Ref sig .tc) (hb : b ≠ main_v30) :
    W7 m ρ c (Proc.devRef .tc b) = W6 m ρ c (Proc.devRef .tc b) := by
  unfold W7; exact Function.update_of_ne (StableHlo.devRef_ne_of_ne hb) ..
abbrev V7 : (c : Dev nD) → (b : Ref sig .tc) → Buf (Elt F) ((c : Thread nD τ).loc b) := fun c b => W7 m ρ c b

/-! ## The bookkeeping family and what rides beside the buffers -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
  | ⟨2, _⟩ => fun c => dat2 (V6 m ρ) c
abbrev 𝒱₀ : Variants := Variants.none
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`: every unscoped buffer at `W7`, the generator register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Pallas call 0 as a segment: entered from every unscoped buffer at `W0`, left at `W1`. Its arrays are split out of
    the unscoped buffers at entry and put back at what the write-backs leave at exit; the generator register passes
    through the call's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered from every unscoped buffer at `W3`, left at `W4`. Its arrays are split out of
    the unscoped buffers at entry and put back at what the write-backs leave at exit; the generator register passes
    through the call's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Pallas call 2's arrays: one buffer read through two windows -/

/-- The call's arrays, window by window: the embedding's buffer at the left half share and again at the right half
    share, the output's buffer outright. -/
theorem arrays2_eq (c : Dev nD) (Fn : (w : Fin cfg2.W) → Buf (Elt F) ((cfg2.win w).arr.view.loc (c : Thread nD τ))) :
    ((dat2 (V6 m ρ) c).arrays Fn : sProp 𝕄)
      = iprop((((cfg2.win 0).arr.view.loc (c : Thread nD τ)) ↦{fullShare.left} Fn 0)
          ∗ (((cfg2.win 1).arr.view.loc (c : Thread nD τ)) ↦{fullShare.right} Fn 1)
          ∗ (((cfg2.win 2).arr.view.loc (c : Thread nD τ)) ↦{fullShare} Fn 2)) := by
  unfold Dat.arrays
  rw [bigSep_W2, (arr_whole2 0).set_eq_univ, (arr_whole2 2).set_eq_univ]
  rfl

/-- A core's unscoped buffers at `V`: the embedding's, the decoder output's, and the rest. -/
theorem unscoped_split2 (c : Dev nD) (V : (b : Ref sig .tc) → Buf (Elt F) ((c : Thread nD τ).loc b)) :
    (unscopedBufs c V : sProp 𝕄)
      = iprop(((((c : Thread nD τ).loc main_v29) ↦{fullShare} V main_v29) ∗ (((c : Thread nD τ).loc main_v30) ↦{fullShare} V main_v30))
          ∗ Pipeline.unscopedRest spec2 c V) := by
  have e : (unscopedBufs c V : sProp 𝕄) = iprop(Pipeline.arrBufs spec2 c V ∗ Pipeline.unscopedRest spec2 c V) :=
    Pipeline.unscopedBufs_split₀ cfgs 2 winFacts₀2.arr_unscoped c V
  rw [e]; unfold Pipeline.arrBufs
  rw [show Finset.univ.image (Pipeline.arrRef spec2) = {main_v29, main_v30} from by decide, bigSep_insert (by decide), bigSep_singleton]
  rfl

/-- ENTRY: the embedding's buffer is split into its two half shares, one per window that reads it. -/
theorem entry2 (c : Dev nD) :
    (StableHlo.held (c : Thread nD τ) (Pipeline.ucRefs τ sig) (W6 m ρ c) : sProp 𝕄)
      ⊢ iprop((dat2 (V6 m ρ) c).arrays ((dat2 (V6 m ρ) c).arrAt · 0) ∗ Pipeline.unscopedRest spec2 c (V6 m ρ c)) := by
  rw [← Pipeline.unscopedBufs_held c (W6 m ρ c), unscoped_split2, arrays2_eq]
  iintro ⟨⟨H29, H30⟩, Hrest⟩
  isplitr [Hrest]; swap; · iexact Hrest
  ihave Hs := (pointsTo_share (PosShare.mem_left_op_right fullShare)).1 $$ H29
  icases Hs with ⟨Hl, Hr⟩
  isplitl [Hl]; · iexact Hl
  isplitl [Hr]; · iexact Hr
  iexact H30

/-- EXIT: the two half shares of the embedding's buffer, still at its entry contents, are joined; the output's
    buffer holds what the write-backs left. -/
theorem exit2 (c : Dev nD) :
    iprop((dat2 (V6 m ρ) c).arrays ((dat2 (V6 m ρ) c).arrAt · cfg2.N) ∗ Pipeline.unscopedRest spec2 c (V6 m ρ c))
      ⊢ (StableHlo.held (c : Thread nD τ) (Pipeline.ucRefs τ sig) (W7 m ρ c) : sProp 𝕄) := by
  have hrest : (Pipeline.unscopedRest spec2 c (V7 m ρ c) : sProp 𝕄) = Pipeline.unscopedRest spec2 c (V6 m ρ c) := by
    unfold Pipeline.unscopedRest
    exact bigSep_congr fun b hb => by
      rw [show V7 m ρ c b = V6 m ρ c b from W7_of_ne m ρ c b (fun e => (Finset.mem_sdiff.mp hb).2 (e ▸ by decide))]
  rw [← Pipeline.unscopedBufs_held c (W7 m ρ c), unscoped_split2, arrays2_eq, hrest,
    (dat2 (V6 m ρ) c).arrAt_in 0 rfl cfg2.N, (dat2 (V6 m ρ) c).arrAt_in 1 rfl cfg2.N,
    W7_of_ne m ρ c main_v29 (by decide), W7_out m ρ c]
  iintro ⟨⟨Hl, Hr, H30⟩, Hrest⟩
  isplitr [Hrest]; swap; · iexact Hrest
  isplitl [Hl Hr]
  · iapply (pointsTo_share (PosShare.mem_left_op_right fullShare)).2
    isplitl [Hl]; · iexact Hl
    iexact Hr
  · iexact H30

set_option backward.isDefEq.respectTransparency.types false in
/-- Pallas call 2 as a segment: entered from every unscoped buffer at `W6`, left at `W7`. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := entry2 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest (Ix := Unit) (Name := ℕ) (U := UR sig nD τ) (Lvl := ℕ) spec2 c (V6 m ρ c))
        ⊢ (StableHlo.held (c : Thread nD τ) (Pipeline.ucRefs τ sig) (W7 m ρ c) : sProp 𝕄) := exit2 m ρ c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ),
    .host (hseg hostOps2 hostOps2_sub hostOps2_fresh (W4 m ρ)),
    .host (hseg hostOps2_1 hostOps2_1_sub hostOps2_1_fresh (W5 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores
    terminates, nothing faulting, and in every final state each unscoped buffer of each core holds `W7`: the launch
    contents pushed through the three Pallas calls and the host operations between them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Run

end
-- ==== Proof.KIKept.lean ====
import proofs.«135062_j65274912964665_1_alg».proof.Proof.KIRun

/-!
# The argument arrays are never written

No host operation of the program writes an argument array, and a Pallas call only reads one through an input
window, whose array its write-backs never touch. So the contents `W7` of an argument's buffer after the whole run, walked
back boundary by boundary, are its launch contents; with the run this is the frame property: the program terminates
without a fault and its argument arrays end unchanged.
-/

set_option maxRecDepth 16384

noncomputable section

namespace Cert.KernelIdeal.Kept

open Idealize.ShloMosaic Idealize.ShloMosaic.TcCoe Idealize.SL.Sem
open Idealize.ShloMosaic.Pipeline (Dat)
open Cert.KernelIdeal Cert.KernelIdeal.Gen Cert.KernelIdeal.Body Cert.KernelIdeal.Run

variable {F : FTy → Type} [FloatOps F]
variable (m : (ℓ : Loc nD τ sig) → Buf (Elt F) ℓ) (ρ : Dev nD → PrngReg)

/-- Through the second aggregation and rectifier: a buffer neither writes is as Pallas call 1 left it. -/
theorem W6_of (c : Dev nD) (r : Ref sig .tc) (h6 : r ∉ hostOps2_1_W) (h5 : r ∉ hostOps2_W) :
    W6 m ρ c (Proc.devRef .tc r) = W4 m ρ c (Proc.devRef .tc r) :=
  (StableHlo.after_of_writes_sub hostOps2_1 _ hostOps2_1_writes h6).trans (StableHlo.after_of_writes_sub hostOps2 _ hostOps2_writes h5)

/-- Through the first aggregation and rectifier: a buffer neither writes is as Pallas call 0 left it. -/
theorem W3_of (c : Dev nD) (r : Ref sig .tc) (h3 : r ∉ hostOps1_1_W) (h2 : r ∉ hostOps1_W) :
    W3 m ρ c (Proc.devRef .tc r) = W1 m ρ c (Proc.devRef .tc r) :=
  (StableHlo.after_of_writes_sub hostOps1_1 _ hostOps1_1_writes h3).trans (StableHlo.after_of_writes_sub hostOps1 _ hostOps1_writes h2)

/-- An input window's array is as Pallas call 1 found it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- An input window's array is as Pallas call 0 found it. -/
theorem W1_in (c : Dev nD) (w : Fin cfg0.W) (hin : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hin _).trans (A_eq0 (V0 m ρ) c w))

theorem W7_main_arg0 (c : Dev nD) : W7 m ρ c (Proc.devRef .tc main_arg0) = m ((c : Thread nD τ).loc main_arg0) :=
  (W7_of_ne m ρ c main_arg0 (by decide)).trans <| (W6_of m ρ c main_arg0 (by decide) (by decide)).trans <|
    (W4_of_ne m ρ c main_arg0 (by decide)).trans <| (W3_of m ρ c main_arg0 (by decide) (by decide)).trans <| (W1_in m ρ c 0 rfl).trans rfl
theorem W7_main_arg1 (c : Dev nD) : W7 m ρ c (Proc.devRef .tc main_arg1) = m ((c : Thread nD τ).loc main_arg1) :=
  (W7_of_ne m ρ c main_arg1 (by decide)).trans <| (W6_of m ρ c main_arg1 (by decide) (by decide)).trans <|
    (W4_of_ne m ρ c main_arg1 (by decide)).trans <| (W3_of m ρ c main_arg1 (by decide) (by decide)).trans <| (W1_in m ρ c 1 rfl).trans rfl
theorem W7_main_arg2 (c : Dev nD) : W7 m ρ c (Proc.devRef .tc main_arg2) = m ((c : Thread nD τ).loc main_arg2) :=
  (W7_of_ne m ρ c main_arg2 (by decide)).trans <| (W6_of m ρ c main_arg2 (by decide) (by decide)).trans <|
    (W4_in m ρ c 1 rfl).trans <| (W3_of m ρ c main_arg2 (by decide) (by decide)).trans <| (W1_of_ne m ρ c main_arg2 (by decide)).trans rfl
theorem W7_main_arg3 (c : Dev nD) : W7 m ρ c (Proc.devRef .tc main_arg3) = m ((c : Thread nD τ).loc main_arg3) :=
  (W7_of_ne m ρ c main_arg3 (by decide)).trans <| (W6_of m ρ c main_arg3 (by decide) (by decide)).trans <|
    (W4_of_ne m ρ c main_arg3 (by decide)).trans <| (W3_of m ρ c main_arg3 (by decide) (by decide)).trans <| (W1_of_ne m ρ c main_arg3 (by decide)).trans rfl
theorem W7_main_arg4 (c : Dev nD) : W7 m ρ c (Proc.devRef .tc main_arg4) = m ((c : Thread nD τ).loc main_arg4) :=
  (W7_of_ne m ρ c main_arg4 (by decide)).trans <| (W6_of m ρ c main_arg4 (by decide) (by decide)).trans <|
    (W4_of_ne m ρ c main_arg4 (by decide)).trans <| (W3_of m ρ c main_arg4 (by decide) (by decide)).trans <| (W1_of_ne m ρ c main_arg4 (by decide)).trans rfl
theorem W7_main_arg5 (c : Dev nD) : W7 m ρ c (Proc.devRef .tc main_arg5) = m ((c : Thread nD τ).loc main_arg5) :=
  (W7_of_ne m ρ c main_arg5 (by decide)).trans <| (W6_of m ρ c main_arg5 (by decide) (by decide)).trans <|
    (W4_of_ne m ρ c main_arg5 (by decide)).trans <| (W3_of m ρ c main_arg5 (by decide) (by decide)).trans <| (W1_of_ne m ρ c main_arg5 (by decide)).trans rfl

/-- THE FRAME: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c)⟩)
    (run_all m ρ)

end Cert.KernelIdeal.Kept

end
-- ==== Proof.Layers.lean ====
import proofs.«135062_j65274912964665_1_alg».proof.Proof.Gen.ReferenceIdeal.Run
import proofs.«135062_j65274912964665_1_alg».proof.Proof.Gen.KernelIdeal.Launch
import Idealize.ShloMosaic.Lib.StableHlo.Run

/-!
# The layers both programs share

Both programs compute a two-layer graph convolution followed by an inner-product decoder:

* `aggregate₁ s` and `aggregate₂ s`: from a support matrix `s` (rows indexed by node), gather the rows `s[cols[e]]`
  (a negative column index wrapped by adding the node count), scale row `e` by `vals[e]`, scatter-add row `e` into
  row `rows[e]` of a zero matrix, and take the entrywise maximum with zero;
* `decode z`: the Gram matrix `z zᵀ`, stacked twice along a new leading axis.

The reference's results are `z = aggregate₂ ((aggregate₁ (x · W1)) · W2)` and `decode z`, its matrix products
the host's `dot_general`. The kernel program's host operations between its Pallas calls are the same `aggregate₁`,
`aggregate₂`, applied to what the calls leave.
-/

noncomputable section

namespace Cert.Layers

open Idealize.ShloMosaic Idealize.ShloMosaic.TcCoe Idealize.SL.Sem Idealize.ShloMosaic.StableHlo

variable {F : FTy → Type} [FloatOps F]

section Reference
open Cert.ReferenceIdeal Cert.ReferenceIdeal.Gen

/-- The first sparse aggregation and rectifier, of a support matrix of width 256. -/
def aggregate₁ (s : FVec F S8192x256 .f32) (vals : FVec F S262144 .f32) (rows cols : (⟨S262144, .i32⟩ : BufTy).Contents (Elt F)) :
    FVec F S8192x256 .f32 :=
  (maximumf (Host.scatterAdd scatter_S8192x256_S262144x1_S262144x256_1_0_0_1 (broadcastInDim S8192x256 ![] bcast_S_S8192x256 (constant S_ .f32 0x00000000#32)) (broadcastInDim S262144x1 ![0] bcast_S262144_S262144x1_0 rows) (mulf (broadcastInDim S262144x256 ![0, 1] bcast_S262144x1_S262144x256_0_1 (broadcastInDim S262144x1 ![0] bcast_S262144_S262144x1_0 vals)) (Host.gather gather_S8192x256_S262144x1_S262144x256_1_0_n_n_0_1_1256 s (broadcastInDim S262144x1 ![0] bcast_S262144_S262144x1_0 (select (cmpi .slt cols (broadcastInDim S262144 ![] bcast_S_S262144 (constantI S_ 32 0#32))) (addi cols (broadcastInDim S262144 ![] bcast_S_S262144 (constantI S_ 32 8192#32))) cols))))) (broadcastInDim S8192x256 ![] bcast_S_S8192x256 (constant S_ .f32 0x00000000#32)))

/-- The second sparse aggregation and rectifier, of a support matrix of width 128. -/
def aggregate₂ (s : FVec F S8192x128 .f32) (vals : FVec F S262144 .f32) (rows cols : (⟨S262144, .i32⟩ : BufTy).Contents (Elt F)) :
    FVec F S8192x128 .f32 :=
  maximumf (Host.scatterAdd scatter_S8192x128_S262144x1_S262144x128_1_0_0_1 (broadcastInDim S8192x128 ![] bcast_S_S8192x128 (constant S_ .f32 0x00000000#32)) (broadcastInDim S262144x1 ![0] bcast_S262144_S262144x1_0 rows) (mulf (broadcastInDim S262144x128 ![0, 1] bcast_S262144x1_S262144x128_0_1 (broadcastInDim S262144x1 ![0] bcast_S262144_S262144x1_0 vals)) (Host.gather gather_S8192x128_S262144x1_S262144x128_1_0_n_n_0_1_1128 s (broadcastInDim S262144x1 ![0] bcast_S262144_S262144x1_0 (select (cmpi .slt cols (broadcastInDim S262144 ![] bcast_S_S262144 (constantI S_ 32 0#32))) (addi cols (broadcastInDim S262144 ![] bcast_S_S262144 (constantI S_ 32 8192#32))) cols))))) (broadcastInDim S8192x128 ![] bcast_S_S8192x128 (constant S_ .f32 0x00000000#32))

/-- The inner-product decoder: the Gram matrix of the embedding, stacked twice. -/
def decode (z : FVec F S8192x128 .f32) : FVec F S2x8192x8192 .f32 :=
  concatenate S2x8192x8192 0 [⟨S1x8192x8192, (broadcastInDim S1x8192x8192 ![1, 2] bcast_S8192x8192_S1x8192x8192_1_2 (Host.dotGeneral dot_S8192x128_S128x8192_S8192x8192_1_0_0_1_n_n none z (transpose S128x8192 [1, 0] z transposes_S8192x128_S128x8192_1_0)))⟩, ⟨S1x8192x8192, (broadcastInDim S1x8192x8192 ![1, 2] bcast_S8192x8192_S1x8192x8192_1_2 (Host.dotGeneral dot_S8192x128_S128x8192_S8192x8192_1_0_0_1_n_n none z (transpose S128x8192 [1, 0] z transposes_S8192x128_S128x8192_1_0)))⟩] concatenates_S1x8192x8192_S1x8192x8192_S2x8192x8192_d0

/-- The embedding as the reference computes it from the argument arrays. -/
def refEmbedding (x : FVec F S8192x512 .f32) (w1 : FVec F S512x256 .f32) (w2 : FVec F S256x128 .f32) (vals : FVec F S262144 .f32)
    (rows cols : (⟨S262144, .i32⟩ : BufTy).Contents (Elt F)) : FVec F S8192x128 .f32 :=
  aggregate₂ (Host.dotGeneral dot_S8192x256_S256x128_S8192x128_1_0_0_1_n_n none
    (aggregate₁ (Host.dotGeneral dot_S8192x512_S512x256_S8192x256_1_0_0_1_n_n none x w1) vals rows cols) w2) vals rows cols

variable (m : (ℓ : Loc nD τ sig) → Buf (Elt F) ℓ) (c : Dev nD)

/-- The reference run's first result is the embedding of the argument arrays. -/
theorem ref_out0 :
    (maximumf (Host.scatterAdd scatter_S8192x128_S262144x1_S262144x128_1_0_0_1 (broadcastInDim S8192x128 ![] bcast_S_S8192x128 (constant S_ .f32 0x00000000#32)) (broadcastInDim S262144x1 ![0] bcast_S262144_S262144x1_0 (m ((c.tc : Thread nD τ).loc main_arg4))) (mulf (broadcastInDim S262144x128 ![0, 1] bcast_S262144x1_S262144x128_0_1 (broadcastInDim S262144x1 ![0] bcast_S262144_S262144x1_0 (m ((c.tc : Thread nD τ).loc main_arg3)))) (Host.gather gather_S8192x128_S262144x1_S262144x128_1_0_n_n_0_1_1128 (Host.dotGeneral dot_S8192x256_S256x128_S8192x128_1_0_0_1_n_n none (maximumf (Host.scatterAdd scatter_S8192x256_S262144x1_S262144x256_1_0_0_1 (broadcastInDim S8192x256 ![] bcast_S_S8192x256 (constant S_ .f32 0x00000000#32)) (broadcastInDim S262144x1 ![0] bcast_S262144_S262144x1_0 (m ((c.tc : Thread nD τ).loc main_arg4))) (mulf (broadcastInDim S262144x256 ![0, 1] bcast_S262144x1_S262144x256_0_1 (broadcastInDim S262144x1 ![0] bcast_S262144_S262144x1_0 (m ((c.tc : Thread nD τ).loc main_arg3)))) (Host.gather gather_S8192x256_S262144x1_S262144x256_1_0_n_n_0_1_1256 (Host.dotGeneral dot_S8192x512_S512x256_S8192x256_1_0_0_1_n_n none (m ((c.tc : Thread nD τ).loc main_arg0)) (m ((c.tc : Thread nD τ).loc main_arg1))) (broadcastInDim S262144x1 ![0] bcast_S262144_S262144x1_0 (select (cmpi .slt (m ((c.tc : Thread nD τ).loc main_arg5)) (broadcastInDim S262144 ![] bcast_S_S262144 (constantI S_ 32 0#32))) (addi (m ((c.tc : Thread nD τ).loc main_arg5)) (broadcastInDim S262144 ![] bcast_S_S262144 (constantI S_ 32 8192#32))) (m ((c.tc : Thread nD τ).loc main_arg5))))))) (broadcastInDim S8192x256 ![] bcast_S_S8192x256 (constant S_ .f32 0x00000000#32))) (m ((c.tc : Thread nD τ).loc main_arg2))) (broadcastInDim S262144x1 ![0] bcast_S262144_S262144x1_0 (select (cmpi .slt (m ((c.tc : Thread nD τ).loc main_arg5)) (broadcastInDim S262144 ![] bcast_S_S262144 (constantI S_ 32 0#32))) (addi (m ((c.tc : Thread nD τ).loc main_arg5)) (broadcastInDim S262144 ![] bcast_S_S262144 (constantI S_ 32 8192#32))) (m ((c.tc : Thread nD τ).loc main_arg5))))))) (broadcastInDim S8192x128 ![] bcast_S_S8192x128 (constant S_ .f32 0x00000000#32)) : FVec F S8192x128 .f32)
      = refEmbedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- The reference run's second result is the decoder applied to that embedding. -/
theorem ref_out1 :
    Cert.ReferenceIdeal.Value.res_main_v34 m c
      = decode (refEmbedding (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold Cert.ReferenceIdeal.Value.res_main_v34; rfl

end Reference

section Kernel
open Cert.KernelIdeal Cert.KernelIdeal.Gen

variable (Vv : Valuation τ sig (Elt F))

/-- The kernel program's first host stretch and rectifier leave the first aggregation of what Pallas call 0 left. -/
theorem host₁ :
    StableHlo.after hostOps1_1 (StableHlo.after hostOps1 Vv) (Proc.devRef .tc main_v14)
      = aggregate₁ (Vv (Proc.devRef .tc main_v0)) (Vv (Proc.devRef .tc main_arg3)) (Vv (Proc.devRef .tc main_arg4)) (Vv (Proc.devRef .tc main_arg5)) := by
  after_results_simp <;> rfl

/-- The second host stretch and rectifier leave the second aggregation of what Pallas call 1 left. -/
theorem host₂ :
    StableHlo.after hostOps2_1 (StableHlo.after hostOps2 Vv) (Proc.devRef .tc main_v29)
      = aggregate₂ (Vv (Proc.devRef .tc main_v15)) (Vv (Proc.devRef .tc main_arg3)) (Vv (Proc.devRef .tc main_arg4)) (Vv (Proc.devRef .tc main_arg5)) := by
  after_results_simp <;> rfl

end Kernel

end Cert.Layers

end
-- ==== Proof.MatmulRead.lean ====
import proofs.«135062_j65274912964665_1_alg».proof.Proof.Gen.KernelIdeal.Skeleton
import proofs.«135062_j65274912964665_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.ValueLayout

/-!
# Matrix products read at an index

Each matrix product of the kernel and of the reference, read at one output
coordinate, is the finite sum over the contracted axis of the products of the
operands' entries.  At the ideal values the narrowing of an operand to a shorter
float format is the identity, a cast to the same shape is the identity, and a
product accumulated into the zero matrix is just the sum.
-/

noncomputable section

open scoped BigOperators

namespace Cert.MatmulRead

open Idealize.ShloMosaic Idealize.SL.Sem Idealize.ShloMosaic.ValueIdx

section Kernel
open Cert.KernelIdeal Cert.KernelIdeal.Gen

/-! ## The first product: 1024×512 by 512×256 -/

theorem lhs_k0_0 (i : S1024x256.Idx) (c : dot_S1024x512_S512x256_S1024x256_1_0_0_1_n_n.contr.Idx) :
    (dot_S1024x512_S512x256_S1024x256_1_0_0_1_n_n.lhsIdx i c 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem lhs_k0_1 (i : S1024x256.Idx) (c : dot_S1024x512_S512x256_S1024x256_1_0_0_1_n_n.contr.Idx) :
    (dot_S1024x512_S512x256_S1024x256_1_0_0_1_n_n.lhsIdx i c 1).val = (c ⟨0, by decide⟩).val :=
  dot_S1024x512_S512x256_S1024x256_1_0_0_1_n_n.lhsIdx_val_of_single rfl i c
theorem rhs_k0_0 (i : S1024x256.Idx) (c : dot_S1024x512_S512x256_S1024x256_1_0_0_1_n_n.contr.Idx) :
    (dot_S1024x512_S512x256_S1024x256_1_0_0_1_n_n.rhsIdx i c 0).val = (c ⟨0, by decide⟩).val :=
  dot_S1024x512_S512x256_S1024x256_1_0_0_1_n_n.rhsIdx_val_of_single rfl i c
theorem rhs_k0_1 (i : S1024x256.Idx) (c : dot_S1024x512_S512x256_S1024x256_1_0_0_1_n_n.contr.Idx) :
    (dot_S1024x512_S512x256_S1024x256_1_0_0_1_n_n.rhsIdx i c 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl
/-- At output coordinate `(p, q)` and contracted coordinate `k` the left operand is read at `(p, k)`. -/
theorem lidx_k0 (p : Fin 1024) (q : Fin 256) (k : Fin 512) :
    dot_S1024x512_S512x256_S1024x256_1_0_0_1_n_n.lhsIdx (ix2 p q) ((contrEquiv1 dot_S1024x512_S512x256_S1024x256_1_0_0_1_n_n 512 rfl rfl).symm k) = ix2 p k :=
  funext fun a => Fin.ext (by
    have hk := contrEquiv1_symm_val dot_S1024x512_S512x256_S1024x256_1_0_0_1_n_n 512 rfl rfl k
    match a with
    | ⟨0, _⟩ => exact lhs_k0_0 _ _
    | ⟨1, _⟩ => exact (lhs_k0_1 _ _).trans hk)
/-- … and the right operand at `(k, q)`. -/
theorem ridx_k0 (p : Fin 1024) (q : Fin 256) (k : Fin 512) :
    dot_S1024x512_S512x256_S1024x256_1_0_0_1_n_n.rhsIdx (ix2 p q) ((contrEquiv1 dot_S1024x512_S512x256_S1024x256_1_0_0_1_n_n 512 rfl rfl).symm k) = ix2 k q :=
  funext fun a => Fin.ext (by
    have hk := contrEquiv1_symm_val dot_S1024x512_S512x256_S1024x256_1_0_0_1_n_n 512 rfl rfl k
    match a with
    | ⟨0, _⟩ => exact (rhs_k0_0 _ _).trans hk
    | ⟨1, _⟩ => exact rhs_k0_1 _ _)

/-- The first product at a coordinate: the sum over the contracted axis, re-indexed by that axis's one coordinate. -/
theorem k0_read (x : Vec Ideal Cert.KernelIdeal.S1024x512 .f32) (w : Vec Ideal Cert.KernelIdeal.S512x256 .f32)
    (p : Fin 1024) (q : Fin 256) :
    Cert.KernelIdeal.Gen.k0_pay1 (F := Ideal) x w (ix2 p q) = ∑ k : Fin 512, x (ix2 p k) * w (ix2 k q) := by
  unfold Cert.KernelIdeal.Gen.k0_pay1
  simp only [matmul]
  rw [Ideal.matmul_constant_zero_apply,
    ← Equiv.sum_comp (contrEquiv1 dot_S1024x512_S512x256_S1024x256_1_0_0_1_n_n 512 rfl rfl).symm]
  refine Finset.sum_congr rfl fun k _ => ?_
  rw [lidx_k0, ridx_k0]
  rfl

/-! ## The second product: 1024×256 by 256×128 -/

theorem lhs_k1_0 (i : S1024x128.Idx) (c : dot_S1024x256_S256x128_S1024x128_1_0_0_1_n_n.contr.Idx) :
    (dot_S1024x256_S256x128_S1024x128_1_0_0_1_n_n.lhsIdx i c 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl
theorem lhs_k1_1 (i : S1024x128.Idx) (c : dot_S1024x256_S256x128_S1024x128_1_0_0_1_n_n.contr.Idx) :
    (dot_S1024x256_S256x128_S1024x128_1_0_0_1_n_n.lhsIdx i c 1).val = (c ⟨0, by decide⟩).val :=
  dot_S1024x256_S256x128_S1024x128_1_0_0_1_n_n.lhsIdx_val_of_single rfl i c
theorem rhs_k1_0 (i : S1024x128.Idx) (c : dot_S1024x256_S256x128_S1024x128_1_0_0_1_n_n.contr.Idx) :
    (dot_S1024x256_S256x128_S1024x128_1_0_0_1_n_n.rhsIdx i c 0).val = (c ⟨0, by decide⟩).val :=
  dot_S1024x256_S256x128_S1024x128_1_0_0_1_n_n.rhsIdx_val_of_single rfl i c
theorem rhs_k1_1 (i : S1024x128.Idx) (c : dot_S1024x256_S256x128_S1024x128_1_0_0_1_n_n.contr.Idx) :
    (dot_S1024x256_S256x128_S1024x128_1_0_0_1_n_n.rhsIdx i c 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl
/-- At output coordinate `(p, q)` and contracted coordinate `k` the left operand is read at `(p, k)`. -/
theorem lidx_k1 (p : Fin 1024) (q : Fin 128) (k : Fin 256) :
    dot_S1024x256_S256x128_S1024x128_1_0_0_1_n_n.lhsIdx (ix2 p q) ((contrEquiv1 dot_S1024x256_S256x128_S1024x128_1_0_0_1_n_n 256 rfl rfl).symm k) = ix2 p k :=
  funext fun a => Fin.ext (by
    have hk := contrEquiv1_symm_val dot_S1024x256_S256x128_S1024x128_1_0_0_1_n_n 256 rfl rfl k
    match a with
    | ⟨0, _⟩ => exact lhs_k1_0 _ _
    | ⟨1, _⟩ => exact (lhs_k1_1 _ _).trans hk)
/-- … and the right operand at `(k, q)`. -/
theorem ridx_k1 (p : Fin 1024) (q : Fin 128) (k : Fin 256) :
    dot_S1024x256_S256x128_S1024x128_1_0_0_1_n_n.rhsIdx (ix2 p q) ((contrEquiv1 dot_S1024x256_S256x128_S1024x128_1_0_0_1_n_n 256 rfl rfl).symm k) = ix2 k q :=
  funext fun a => Fin.ext (by
    have hk := contrEquiv1_symm_val dot_S1024x256_S256x128_S1024x128_1_0_0_1_n_n 256 rfl rfl k
    match a with
    | ⟨0, _⟩ => exact (rhs_k1_0 _ _).trans hk
    | ⟨1, _⟩ => exact rhs_k1_1 _ _)

/-- The second product at a coordinate; the cast of the left operand to its own shape is the identity. -/
theorem k1_read (x : Vec Ideal Cert.KernelIdeal.S1024x256 .f32) (w : Vec Ideal Cert.KernelIdeal.S256x128 .f32)
    (p : Fin 1024) (q : Fin 128) :
    Cert.KernelIdeal.Gen.k1_pay1 (F := Ideal) x w (ix2 p q) = ∑ k : Fin 256, x (ix2 p k) * w (ix2 k q) := by
  unfold Cert.KernelIdeal.Gen.k1_pay1
  simp only [matmul]
  rw [Ideal.matmul_constant_zero_apply,
    ← Equiv.sum_comp (contrEquiv1 dot_S1024x256_S256x128_S1024x128_1_0_0_1_n_n 256 rfl rfl).symm]
  refine Finset.sum_congr rfl fun k _ => ?_
  rw [lidx_k1, ridx_k1, shapeCast_self]
  rfl

/-! ## The third product: 1024×128 by the transpose of 1024×128 -/

theorem lhs_k2_0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem lhs_k2_1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
theorem rhs_k2_0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
theorem rhs_k2_1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl
/-- At output coordinate `(p, q)` and contracted coordinate `k` the left operand is read at `(p, k)`. -/
theorem lidx_k2 (p : Fin 1024) (q : Fin 1024) (k : Fin 128) :
    dot_S1024x128_S128x1024_S1024x1024_1_0_0_1_n_n.lhsIdx (ix2 p q) ((contrEquiv1 dot_S1024x128_S128x1024_S1024x1024_1_0_0_1_n_n 128 rfl rfl).symm k) = ix2 p k :=
  funext fun a => Fin.ext (by
    have hk := contrEquiv1_symm_val dot_S1024x128_S128x1024_S1024x1024_1_0_0_1_n_n 128 rfl rfl k
    match a with
    | ⟨0, _⟩ => exact lhs_k2_0 _ _
    | ⟨1, _⟩ => exact (lhs_k2_1 _ _).trans hk)
/-- … and the right operand at `(k, q)`. -/
theorem ridx_k2 (p : Fin 1024) (q : Fin 1024) (k : Fin 128) :
    dot_S1024x128_S128x1024_S1024x1024_1_0_0_1_n_n.rhsIdx (ix2 p q) ((contrEquiv1 dot_S1024x128_S128x1024_S1024x1024_1_0_0_1_n_n 128 rfl rfl).symm k) = ix2 k q :=
  funext fun a => Fin.ext (by
    have hk := contrEquiv1_symm_val dot_S1024x128_S128x1024_S1024x1024_1_0_0_1_n_n 128 rfl rfl k
    match a with
    | ⟨0, _⟩ => exact (rhs_k2_0 _ _).trans hk
    | ⟨1, _⟩ => exact rhs_k2_1 _ _)

/-- The third product at a coordinate: row `p` of the first operand against row `q` of the second
    (the transposed operand at `(k, q)` is the operand at `(q, k)`). -/
theorem k2_read (a b : Vec Ideal Cert.KernelIdeal.S1024x128 .f32) (p q : Fin 1024) :
    Cert.KernelIdeal.Gen.k2_pay1 (F := Ideal) a b (ix2 p q) = ∑ k : Fin 128, a (ix2 p k) * b (ix2 q k) := by
  unfold Cert.KernelIdeal.Gen.k2_pay1
  simp only [matmul]
  rw [Ideal.matmul_constant_zero_apply,
    ← Equiv.sum_comp (contrEquiv1 dot_S1024x128_S128x1024_S1024x1024_1_0_0_1_n_n 128 rfl rfl).symm]
  refine Finset.sum_congr rfl fun k _ => ?_
  rw [lidx_k2, ridx_k2, shapeCast_self, shapeCast_self,
    transpose_apply [1, 0] _ transposes_S1024x128_p1_0_S128x1024 (ix2 k q) (ix2 q k)
      (fun c => match c with | ⟨0, _⟩ => rfl | ⟨1, _⟩ => rfl)]
  rfl

/-- Dropping the leading coordinate of `(0, p, q)` leaves `(p, q)`. -/
theorem tail_ix3 (p q : Fin 1024) :
    (fun c : Fin 2 => (ix3 (0 : Fin 1) p q) c.succ) = ix2 p q :=
  funext fun c => by match c with | ⟨0, _⟩ => rfl | ⟨1, _⟩ => rfl

/-- The product stored as a block with a leading unit axis: the same sum at `(0, p, q)`. -/
theorem k2_pay2_read (a b : Vec Ideal Cert.KernelIdeal.S1024x128 .f32) (p q : Fin 1024) :
    Cert.KernelIdeal.Gen.k2_pay2 (F := Ideal) a b (ix3 (0 : Fin 1) p q) = ∑ k : Fin 128, a (ix2 p k) * b (ix2 q k) := by
  unfold Cert.KernelIdeal.Gen.k2_pay2
  rw [← k2_read a b p q, ← tail_ix3 p q]
  exact shapeCast_addUnit_apply ![1024, 1024] _ shapeCasts_S1024x1024_S1x1024x1024 (ix3 (0 : Fin 1) p q)

/-- The second stored copy of the product. -/
theorem k2_pay3_read (a b : Vec Ideal Cert.KernelIdeal.S1024x128 .f32) (p q : Fin 1024) :
    Cert.KernelIdeal.Gen.k2_pay3 (F := Ideal) a b (ix3 (0 : Fin 1) p q) = ∑ k : Fin 128, a (ix2 p k) * b (ix2 q k) := by
  unfold Cert.KernelIdeal.Gen.k2_pay3
  rw [← k2_read a b p q, ← tail_ix3 p q]
  exact shapeCast_addUnit_apply ![1024, 1024] _ shapeCasts_S1024x1024_S1x1024x1024 (ix3 (0 : Fin 1) p q)

end Kernel

section Reference
open Cert.ReferenceIdeal Cert.ReferenceIdeal.Gen Idealize.ShloMosaic.StableHlo

/-! ## The reference's first product: 8192×512 by 512×256 -/

/-- At output coordinate `(i, j)` and contracted coordinate `k` the left operand is read at `(i, k)`. -/
theorem lidx_r0 (i : Fin 8192) (j : Fin 256) (k : Fin 512) :
    dot_S8192x512_S512x256_S8192x256_1_0_0_1_n_n.lhsIdx (ix2 i j) ((contrEquiv1 dot_S8192x512_S512x256_S8192x256_1_0_0_1_n_n 512 rfl rfl).symm k) = ix2 i k :=
  funext fun a => Fin.ext (by
    have hk := contrEquiv1_symm_val dot_S8192x512_S512x256_S8192x256_1_0_0_1_n_n 512 rfl rfl k
    match a with
    | ⟨0, _⟩ => exact Read.lhs_main_v0_0 _ _
    | ⟨1, _⟩ => exact (Read.lhs_main_v0_1 _ _).trans hk)
/-- … and the right operand at `(k, j)`. -/
theorem ridx_r0 (i : Fin 8192) (j : Fin 256) (k : Fin 512) :
    dot_S8192x512_S512x256_S8192x256_1_0_0_1_n_n.rhsIdx (ix2 i j) ((contrEquiv1 dot_S8192x512_S512x256_S8192x256_1_0_0_1_n_n 512 rfl rfl).symm k) = ix2 k j :=
  funext fun a => Fin.ext (by
    have hk := contrEquiv1_symm_val dot_S8192x512_S512x256_S8192x256_1_0_0_1_n_n 512 rfl rfl k
    match a with
    | ⟨0, _⟩ => exact (Read.rhs_main_v0_0 _ _).trans hk
    | ⟨1, _⟩ => exact Read.rhs_main_v0_1 _ _)

/-- The reference's first product at a coordinate. -/
theorem ref_dot0 (x : FVec Ideal S8192x512 .f32) (w : FVec Ideal S512x256 .f32) (i : Fin 8192) (j : Fin 256) :
    Host.dotGeneral (F := Ideal) dot_S8192x512_S512x256_S8192x256_1_0_0_1_n_n none x w (ix2 i j) = ∑ k : Fin 512, x (ix2 i k) * w (ix2 k j) := by
  simp only [Host.dotGeneral]
  rw [Ideal.dotGeneral_apply, ← Equiv.sum_comp (contrEquiv1 dot_S8192x512_S512x256_S8192x256_1_0_0_1_n_n 512 rfl rfl).symm]
  refine Finset.sum_congr rfl fun k _ => ?_
  rw [lidx_r0, ridx_r0]

/-! ## The reference's second product: 8192×256 by 256×128 -/

/-- At output coordinate `(i, j)` and contracted coordinate `k` the left operand is read at `(i, k)`. -/
theorem lidx_r1 (i : Fin 8192) (j : Fin 128) (k : Fin 256) :
    dot_S8192x256_S256x128_S8192x128_1_0_0_1_n_n.lhsIdx (ix2 i j) ((contrEquiv1 dot_S8192x256_S256x128_S8192x128_1_0_0_1_n_n 256 rfl rfl).symm k) = ix2 i k :=
  funext fun a => Fin.ext (by
    have hk := contrEquiv1_symm_val dot_S8192x256_S256x128_S8192x128_1_0_0_1_n_n 256 rfl rfl k
    match a with
    | ⟨0, _⟩ => exact Read.lhs_main_v15_0 _ _
    | ⟨1, _⟩ => exact (Read.lhs_main_v15_1 _ _).trans hk)
/-- … and the right operand at `(k, j)`. -/
theorem ridx_r1 (i : Fin 8192) (j : Fin 128) (k : Fin 256) :
    dot_S8192x256_S256x128_S8192x128_1_0_0_1_n_n.rhsIdx (ix2 i j) ((contrEquiv1 dot_S8192x256_S256x128_S8192x128_1_0_0_1_n_n 256 rfl rfl).symm k) = ix2 k j :=
  funext fun a => Fin.ext (by
    have hk := contrEquiv1_symm_val dot_S8192x256_S256x128_S8192x128_1_0_0_1_n_n 256 rfl rfl k
    match a with
    | ⟨0, _⟩ => exact (Read.rhs_main_v15_0 _ _).trans hk
    | ⟨1, _⟩ => exact Read.rhs_main_v15_1 _ _)

/-- The reference's second product at a coordinate. -/
theorem ref_dot1 (x : FVec Ideal S8192x256 .f32) (w : FVec Ideal S256x128 .f32) (i : Fin 8192) (j : Fin 128) :
    Host.dotGeneral (F := Ideal) dot_S8192x256_S256x128_S8192x128_1_0_0_1_n_n none x w (ix2 i j) = ∑ k : Fin 256, x (ix2 i k) * w (ix2 k j) := by
  simp only [Host.dotGeneral]
  rw [Ideal.dotGeneral_apply, ← Equiv.sum_comp (contrEquiv1 dot_S8192x256_S256x128_S8192x128_1_0_0_1_n_n 256 rfl rfl).symm]
  refine Finset.sum_congr rfl fun k _ => ?_
  rw [lidx_r1, ridx_r1]

/-! ## The reference's third product, against its own transpose, stored twice -/

/-- At output coordinate `(i, j)` and contracted coordinate `k` the left operand is read at `(i, k)`. -/
theorem lidx_r2 (i : Fin 8192) (j : Fin 8192) (k : Fin 128) :
    dot_S8192x128_S128x8192_S8192x8192_1_0_0_1_n_n.lhsIdx (ix2 i j) ((contrEquiv1 dot_S8192x128_S128x8192_S8192x8192_1_0_0_1_n_n 128 rfl rfl).symm k) = ix2 i k :=
  funext fun a => Fin.ext (by
    have hk := contrEquiv1_symm_val dot_S8192x128_S128x8192_S8192x8192_1_0_0_1_n_n 128 rfl rfl k
    match a with
    | ⟨0, _⟩ => exact Read.lhs_main_v31_0 _ _
    | ⟨1, _⟩ => exact (Read.lhs_main_v31_1 _ _).trans hk)
/-- … and the right operand at `(k, j)`. -/
theorem ridx_r2 (i : Fin 8192) (j : Fin 8192) (k : Fin 128) :
    dot_S8192x128_S128x8192_S8192x8192_1_0_0_1_n_n.rhsIdx (ix2 i j) ((contrEquiv1 dot_S8192x128_S128x8192_S8192x8192_1_0_0_1_n_n 128 rfl rfl).symm k) = ix2 k j :=
  funext fun a => Fin.ext (by
    have hk := contrEquiv1_symm_val dot_S8192x128_S128x8192_S8192x8192_1_0_0_1_n_n 128 rfl rfl k
    match a with
    | ⟨0, _⟩ => exact (Read.rhs_main_v31_0 _ _).trans hk
    | ⟨1, _⟩ => exact Read.rhs_main_v31_1 _ _)

/-- The reference's third product at a coordinate, for any right operand. -/
theorem ref_dot2 (x : FVec Ideal S8192x128 .f32) (w : FVec Ideal S128x8192 .f32) (i : Fin 8192) (j : Fin 8192) :
    Host.dotGeneral (F := Ideal) dot_S8192x128_S128x8192_S8192x8192_1_0_0_1_n_n none x w (ix2 i j) = ∑ k : Fin 128, x (ix2 i k) * w (ix2 k j) := by
  simp only [Host.dotGeneral]
  rw [Ideal.dotGeneral_apply, ← Equiv.sum_comp (contrEquiv1 dot_S8192x128_S128x8192_S8192x8192_1_0_0_1_n_n 128 rfl rfl).symm]
  refine Finset.sum_congr rfl fun k _ => ?_
  rw [lidx_r2, ridx_r2]

/-- The product of a matrix with its own transpose: entry `(i, j)` pairs row `i` with row `j`. -/
theorem ref_gram (z : FVec Ideal S8192x128 .f32) (i j : Fin 8192) :
    Host.dotGeneral (F := Ideal) dot_S8192x128_S128x8192_S8192x8192_1_0_0_1_n_n none z
      (transpose S128x8192 [1, 0] z transposes_S8192x128_S128x8192_1_0) (ix2 i j)
      = ∑ k : Fin 128, z (ix2 i k) * z (ix2 j k) := by
  rw [ref_dot2]
  refine Finset.sum_congr rfl fun k _ => ?_
  rw [transpose_apply [1, 0] z transposes_S8192x128_S128x8192_1_0 (ix2 k j) (ix2 j k)
    (fun c => match c with | ⟨0, _⟩ => rfl | ⟨1, _⟩ => rfl)]

/-- The matrix with a new leading unit axis, read at `(0, i, j)`. -/
theorem lead_apply (y : FVec Ideal S8192x8192 .f32) (i j : Fin 8192) :
    broadcastInDim S1x8192x8192 ![1, 2] bcast_S8192x8192_S1x8192x8192_1_2 y (ix3 (0 : Fin 1) i j) = y (ix2 i j) :=
  broadcastInDim_apply _ bcast_S8192x8192_S1x8192x8192_1_2 y (ix3 (0 : Fin 1) i j) (ix2 i j) (fun a => match a with
    | ⟨0, _⟩ => by show i.val = if (8192 : Nat) = 1 then 0 else i.val; rw [if_neg (by decide)]
    | ⟨1, _⟩ => by show j.val = if (8192 : Nat) = 1 then 0 else j.val; rw [if_neg (by decide)])

/-- One block with a leading unit axis joined with itself along that axis: either half at `(i, j)` is the block. -/
theorem join_self_apply (y : FVec Ideal S1x8192x8192 .f32) (v : Fin 2) (i j : Fin 8192) :
    concatenate S2x8192x8192 0 [⟨S1x8192x8192, y⟩, ⟨S1x8192x8192, y⟩]
      concatenates_S1x8192x8192_S1x8192x8192_S2x8192x8192_d0 (ix3 v i j) = y (ix3 (0 : Fin 1) i j) := by
  match v with
  | ⟨0, _⟩ =>
    exact concatenate_pair_apply_left (0 : Fin S2x8192x8192.rank) y y concatenates_S1x8192x8192_S1x8192x8192_S2x8192x8192_d0
      _ rfl (ix3 (0 : Fin 1) i j)
      (fun b => match b with | ⟨0, _⟩ => rfl | ⟨1, _⟩ => rfl | ⟨2, _⟩ => rfl)
  | ⟨1, _⟩ =>
    exact concatenate_pair_apply_right (0 : Fin S2x8192x8192.rank) y y concatenates_S1x8192x8192_S1x8192x8192_S2x8192x8192_d0
      _ rfl rfl (ix3 (0 : Fin 1) i j)
      (fun b hb => match b, hb with
        | ⟨0, _⟩, hb => absurd rfl hb
        | ⟨1, _⟩, _ => rfl
        | ⟨2, _⟩, _ => rfl)
      rfl

/-- The reference's last four operations composed, read at `(v, i, j)`: both blocks hold the product of the
    matrix with its own transpose. -/
theorem ref_tail (z : FVec Ideal S8192x128 .f32) (v : Fin 2) (i j : Fin 8192) :
    concatenate S2x8192x8192 0
      [⟨S1x8192x8192, broadcastInDim S1x8192x8192 ![1, 2] bcast_S8192x8192_S1x8192x8192_1_2
          (Host.dotGeneral (F := Ideal) dot_S8192x128_S128x8192_S8192x8192_1_0_0_1_n_n none z
            (transpose S128x8192 [1, 0] z transposes_S8192x128_S128x8192_1_0))⟩,
       ⟨S1x8192x8192, broadcastInDim S1x8192x8192 ![1, 2] bcast_S8192x8192_S1x8192x8192_1_2
          (Host.dotGeneral (F := Ideal) dot_S8192x128_S128x8192_S8192x8192_1_0_0_1_n_n none z
            (transpose S128x8192 [1, 0] z transposes_S8192x128_S128x8192_1_0))⟩]
      concatenates_S1x8192x8192_S1x8192x8192_S2x8192x8192_d0 (ix3 v i j)
      = ∑ k : Fin 128, z (ix2 i k) * z (ix2 j k) := by
  rw [join_self_apply, lead_apply, ref_gram]

/-- The reference's second output, as the generated reading names it, is that composition of its `%29`. -/
theorem val_main_v34_apply (x0 : FVec Ideal S8192x512 .f32) (x1 : FVec Ideal S512x256 .f32) (x2 : FVec Ideal S256x128 .f32)
    (x3 : FVec Ideal S262144 .f32) (x4 x5 : (⟨S262144, .i32⟩ : BufTy).Contents (Elt Ideal)) (v : Fin 2) (i j : Fin 8192) :
    Read.val_main_v34 (F := Ideal) x0 x1 x2 x3 x4 x5 (ix3 v i j)
      = ∑ k : Fin 128, Read.val_main_v29 (F := Ideal) x0 x1 x2 x3 x4 x5 (ix2 i k) * Read.val_main_v29 (F := Ideal) x0 x1 x2 x3 x4 x5 (ix2 j k) :=
  ref_tail (Read.val_main_v29 (F := Ideal) x0 x1 x2 x3 x4 x5) v i j

end Reference

end Cert.MatmulRead

end
-- ==== Proof.TileValue.lean ====
import proofs.«135062_j65274912964665_1_alg».proof.Proof.KIBody
import proofs.«135062_j65274912964665_1_alg».proof.Proof.MatmulRead
import Idealize.ShloMosaic.Lib.Pipeline.Value

/-!
# The arrays the three tiled products leave

Each call writes back, grid point by grid point, one tile of its output array.  A tile is the product of
the row block (or blocks) its point reads, so entry by entry it is the finite sum the whole product has
at the tile's place in the array; and the tiles cover the array.  Hence the array each call leaves is the
whole product.
-/

noncomputable section

open scoped BigOperators

namespace Cert.KernelIdeal.TileValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Body Cert.MatmulRead

variable (V : (c : Dev nD) → (b : Ref sig .tc) → Buf (Elt Ideal) ((c : Thread nD τ).loc b))

theorem zero2 : (![0, 0] : Fin 2 → Nat) = fun _ => 0 := funext fun a => by fin_cases a <;> rfl

/-! ## Call 0: eight row blocks of the left operand, each times the whole right operand -/

/-- The whole first product, as the reference states it. -/
abbrev P0 (a0 : S8192x512.Idx → Elt Ideal .f32) (a1 : S512x256.Idx → Elt Ideal .f32) : S8192x256.Idx → Elt Ideal .f32 :=
  Host.dotGeneral (F := Ideal) (φ₁ := .f32) (φ₂ := .f32) Cert.ReferenceIdeal.dot_S8192x512_S512x256_S8192x256_1_0_0_1_n_n none a0 a1

/-- A tile of the product: when `x` is row block `r` of `A0` and `w` is `A1`, the product of `x` and `w` at `j` is the
    whole product at row `r · 1024 + j₀`, column `j₁` — the same sum over the contracted axis. -/
theorem tile0 (x : Vec Ideal S1024x512 .f32) (w : Vec Ideal S512x256 .f32)
    (A0 : S8192x512.Idx → Elt Ideal .f32) (A1 : S512x256.Idx → Elt Ideal .f32) (r : Nat)
    (hx : ∀ (y : S1024x512.Idx) (u : S8192x512.Idx), (u 0).val = r * 1024 + (y 0).val → (u 1).val = (y 1).val → x y = A0 u)
    (hw : ∀ y : S512x256.Idx, w y = A1 y)
    (j : S1024x256.Idx) (i : S8192x256.Idx) (hi0 : (i 0).val = r * 1024 + (j 0).val) (hi1 : (i 1).val = (j 1).val) :
    k0_pay1 (F := Ideal) x w j = P0 A0 A1 i := by
  obtain ⟨p, q, rfl⟩ : ∃ (p : Fin 1024) (q : Fin 256), j = ix2 p q := ⟨j 0, j 1, eq_ix2 j⟩
  obtain ⟨i0, i1, rfl⟩ : ∃ (i0 : Fin 8192) (i1 : Fin 256), i = ix2 i0 i1 := ⟨i 0, i 1, eq_ix2 i⟩
  have hq : i1 = q := Fin.ext hi1
  subst hq
  rw [k0_read]
  show _ = Host.dotGeneral (F := Ideal) (φ₁ := .f32) (φ₂ := .f32) Cert.ReferenceIdeal.dot_S8192x512_S512x256_S8192x256_1_0_0_1_n_n none A0 A1 (ix2 i0 i1)
  rw [ref_dot0]
  refine Finset.sum_congr rfl fun k _ => ?_
  rw [hx (ix2 p k) (ix2 i0 k) hi0 rfl, hw]

/-- Where the three windows' blocks sit at each grid point: the left operand's row block moves with the output's, the
    right operand is whole, the output's blocks are the eight row blocks. -/
theorem places0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the output is some point's. -/
theorem onto0 : ∀ q : Fin 8, ∃ t : Fin cfg0.N, win0_2.index t = ![q.val, 0] :=
  (by decide +kernel : ∀ q : Fin 8, ∃ t : Fin grid0.N, win0_2.index t = ![q.val, 0])

/-- What point `t` writes back is block `t` of the whole product of the arrays the call finds. -/
theorem flushed0_eq (c : Dev nD) (t : Fin cfg0.N) :
    (dat0 V c).flushed 2 t = ((cfg0.win 2).blk t).view.read (Elt Ideal) (P0 (V c main_arg0) (V c main_arg1)) := by
  show (cfg0.win 2).cut (grid0.coords t) ((dat0 V c).after 2 t) = _
  rw [after0_2]
  unfold res0
  rw [View.canon_unit_zero zero2]
  simp only [View.ld_unit_zero (S := S1024x512) zero2, View.ld_unit_zero (S := S512x256) zero2]
  obtain ⟨e0, e1, e2, e3, e4, e5⟩ := places0 t
  funext j
  show k0_pay1 (F := Ideal) (blk0 V c 0 t) (blk0 V c 1 t) j = P0 (V c main_arg0) (V c main_arg1) (((cfg0.win 2).blk t).view.emb j)
  refine tile0 (blk0 V c 0 t) (blk0 V c 1 t) (V c main_arg0) (V c main_arg1) (win0_2.index t (0 : Fin 2)) ?_ ?_ j _ ?_ ?_
  · intro y u h0 h1
    show V c main_arg0 (((cfg0.win 0).blk t).view.emb y) = V c main_arg0 u
    refine congrArg (V c main_arg0) (funext fun a => Fin.ext ?_)
    match a with
    | ⟨0, _⟩ => show win0_0.index t (0 : Fin 2) * 1024 + 1 * (y 0).val = (u 0).val; omega
    | ⟨1, _⟩ => show win0_0.index t (1 : Fin 2) * 512 + 1 * (y 1).val = (u 1).val; omega
  · intro y
    show V c main_arg1 (((cfg0.win 1).blk t).view.emb y) = V c main_arg1 y
    refine congrArg (V c main_arg1) (funext fun a => Fin.ext ?_)
    match a with
    | ⟨0, _⟩ => show win0_1.index t (0 : Fin 2) * 512 + 1 * (y 0).val = (y 0).val; omega
    | ⟨1, _⟩ => show win0_1.index t (1 : Fin 2) * 256 + 1 * (y 1).val = (y 1).val; omega
  · show win0_2.index t (0 : Fin 2) * 1024 + 1 * (j 0).val = win0_2.index t (0 : Fin 2) * 1024 + (j 0).val; omega
  · show win0_2.index t (1 : Fin 2) * 256 + 1 * (j 1).val = (j 1).val; omega

/-- An index of the output array is in point `t`'s block iff each coordinate is in the block's range on its axis. -/
theorem mem_blk0 (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0).slice (win0_2.rect t)).set ↔ _
  rw [View.set_slice_whole, Rect.mem_set_unit]
  exact Iff.rfl

/-- The eight row blocks cover the output array: row `r` is in block `r / 1024`. -/
theorem covered0 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 256 ≤ (i 1).val ∧ (i 1).val < win0_2.index t (1 : Fin 2) * 256 + 256
    omega

/-- The array call 0 leaves is the whole product of the two arrays it finds. -/
theorem array0 (c : Dev nD) :
    (dat0 V c).arrAt 2 cfg0.N = Host.dotGeneral (F := Ideal) (φ₁ := .f32) (φ₂ := .f32)
      Cert.ReferenceIdeal.dot_S8192x512_S512x256_S8192x256_1_0_0_1_n_n none (V c main_arg0) (V c main_arg1) :=
  (dat0 V c).arrAt_eq_of_cover 2 (P0 (V c main_arg0) (V c main_arg1)) (fun t _ => flushed0_eq V c t) covered0

/-! ## Call 1: eight row blocks of the hidden layer, each times the whole second weight -/

/-- The whole second product, as the reference states it. -/
abbrev P1 (a0 : S8192x256.Idx → Elt Ideal .f32) (a1 : S256x128.Idx → Elt Ideal .f32) : S8192x128.Idx → Elt Ideal .f32 :=
  Host.dotGeneral (F := Ideal) (φ₁ := .f32) (φ₂ := .f32) Cert.ReferenceIdeal.dot_S8192x256_S256x128_S8192x128_1_0_0_1_n_n none a0 a1

/-- A tile of the product: when `x` is row block `r` of `A0` and `w` is `A1`, the product of `x` and `w` at `j` is the
    whole product at row `r · 1024 + j₀`, column `j₁`. -/
theorem tile1 (x : Vec Ideal S1024x256 .f32) (w : Vec Ideal S256x128 .f32)
    (A0 : S8192x256.Idx → Elt Ideal .f32) (A1 : S256x128.Idx → Elt Ideal .f32) (r : Nat)
    (hx : ∀ (y : S1024x256.Idx) (u : S8192x256.Idx), (u 0).val = r * 1024 + (y 0).val → (u 1).val = (y 1).val → x y = A0 u)
    (hw : ∀ y : S256x128.Idx, w y = A1 y)
    (j : S1024x128.Idx) (i : S8192x128.Idx) (hi0 : (i 0).val = r * 1024 + (j 0).val) (hi1 : (i 1).val = (j 1).val) :
    k1_pay1 (F := Ideal) x w j = P1 A0 A1 i := by
  obtain ⟨p, q, rfl⟩ : ∃ (p : Fin 1024) (q : Fin 128), j = ix2 p q := ⟨j 0, j 1, eq_ix2 j⟩
  obtain ⟨i0, i1, rfl⟩ : ∃ (i0 : Fin 8192) (i1 : Fin 128), i = ix2 i0 i1 := ⟨i 0, i 1, eq_ix2 i⟩
  have hq : i1 = q := Fin.ext hi1
  subst hq
  rw [k1_read]
  show _ = Host.dotGeneral (F := Ideal) (φ₁ := .f32) (φ₂ := .f32) Cert.ReferenceIdeal.dot_S8192x256_S256x128_S8192x128_1_0_0_1_n_n none A0 A1 (ix2 i0 i1)
  rw [ref_dot1]
  refine Finset.sum_congr rfl fun k _ => ?_
  rw [hx (ix2 p k) (ix2 i0 k) hi0 rfl, hw]

/-- Where the three windows' blocks sit at each grid point: the left operand's row block moves with the output's, the
    right operand is whole, the output's blocks are the eight row blocks. -/
theorem places1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every row block of the output is some point's. -/
theorem onto1 : ∀ q : Fin 8, ∃ t : Fin cfg1.N, win1_2.index t = ![q.val, 0] :=
  (by decide +kernel : ∀ q : Fin 8, ∃ t : Fin grid1.N, win1_2.index t = ![q.val, 0])

/-- What point `t` writes back is block `t` of the whole product of the arrays the call finds. -/
theorem flushed1_eq (c : Dev nD) (t : Fin cfg1.N) :
    (dat1 V c).flushed 2 t = ((cfg1.win 2).blk t).view.read (Elt Ideal) (P1 (V c main_v14) (V c main_arg2)) := by
  show (cfg1.win 2).cut (grid1.coords t) ((dat1 V c).after 2 t) = _
  rw [after1_2]
  unfold res1
  rw [View.canon_unit_zero zero2]
  simp only [View.ld_unit_zero (S := S1024x256) zero2, View.ld_unit_zero (S := S256x128) zero2]
  obtain ⟨e0, e1, e2, e3, e4, e5⟩ := places1 t
  funext j
  show k1_pay1 (F := Ideal) (blk1 V c 0 t) (blk1 V c 1 t) j = P1 (V c main_v14) (V c main_arg2) (((cfg1.win 2).blk t).view.emb j)
  refine tile1 (blk1 V c 0 t) (blk1 V c 1 t) (V c main_v14) (V c main_arg2) (win1_2.index t (0 : Fin 2)) ?_ ?_ j _ ?_ ?_
  · intro y u h0 h1
    show V c main_v14 (((cfg1.win 0).blk t).view.emb y) = V c main_v14 u
    refine congrArg (V c main_v14) (funext fun a => Fin.ext ?_)
    match a with
    | ⟨0, _⟩ => show win1_0.index t (0 : Fin 2) * 1024 + 1 * (y 0).val = (u 0).val; omega
    | ⟨1, _⟩ => show win1_0.index t (1 : Fin 2) * 256 + 1 * (y 1).val = (u 1).val; omega
  · intro y
    show V c main_arg2 (((cfg1.win 1).blk t).view.emb y) = V c main_arg2 y
    refine congrArg (V c main_arg2) (funext fun a => Fin.ext ?_)
    match a with
    | ⟨0, _⟩ => show win1_1.index t (0 : Fin 2) * 256 + 1 * (y 0).val = (y 0).val; omega
    | ⟨1, _⟩ => show win1_1.index t (1 : Fin 2) * 128 + 1 * (y 1).val = (y 1).val; omega
  · show win1_2.index t (0 : Fin 2) * 1024 + 1 * (j 0).val = win1_2.index t (0 : Fin 2) * 1024 + (j 0).val; omega
  · show win1_2.index t (1 : Fin 2) * 128 + 1 * (j 1).val = (j 1).val; omega

/-- An index of the output array is in point `t`'s block iff each coordinate is in the block's range on its axis. -/
theorem mem_blk1 (t : Fin cfg1.N) (i : S8192x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v15).slice (win1_2.rect t)).set ↔ _
  rw [View.set_slice_whole, Rect.mem_set_unit]
  exact Iff.rfl

/-- The eight row blocks cover the output array: row `r` is in block `r / 1024`. -/
theorem covered1 (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  obtain ⟨t, ht⟩ := onto1 ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk1]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 128 ≤ (i 1).val ∧ (i 1).val < win1_2.index t (1 : Fin 2) * 128 + 128
    omega

/-- The array call 1 leaves is the whole product of the two arrays it finds. -/
theorem array1 (c : Dev nD) :
    (dat1 V c).arrAt 2 cfg1.N = Host.dotGeneral (F := Ideal) (φ₁ := .f32) (φ₂ := .f32)
      Cert.ReferenceIdeal.dot_S8192x256_S256x128_S8192x128_1_0_0_1_n_n none (V c main_v14) (V c main_arg2) :=
  (dat1 V c).arrAt_eq_of_cover 2 (P1 (V c main_v14) (V c main_arg2)) (fun t _ => flushed1_eq V c t) covered1

/-! ## Call 2: an 8 × 8 grid of tiles, row block `i` against row block `j` of one array, each tile stored twice -/

/-- The reference's last four operations composed: the product of the array with its own transpose, given a leading
    unit axis, joined with itself along that axis. -/
abbrev P2 (z : Cert.ReferenceIdeal.S8192x128.Idx → Elt Ideal .f32) : Cert.ReferenceIdeal.S2x8192x8192.Idx → Elt Ideal .f32 :=
  concatenate Cert.ReferenceIdeal.S2x8192x8192 0
    [⟨Cert.ReferenceIdeal.S1x8192x8192, broadcastInDim Cert.ReferenceIdeal.S1x8192x8192 ![1, 2] Cert.ReferenceIdeal.Gen.bcast_S8192x8192_S1x8192x8192_1_2
        (Host.dotGeneral (F := Ideal) (φ₁ := .f32) (φ₂ := .f32) Cert.ReferenceIdeal.dot_S8192x128_S128x8192_S8192x8192_1_0_0_1_n_n none z
            (transpose Cert.ReferenceIdeal.S128x8192 [1, 0] z Cert.ReferenceIdeal.Gen.transposes_S8192x128_S128x8192_1_0))⟩,
     ⟨Cert.ReferenceIdeal.S1x8192x8192, broadcastInDim Cert.ReferenceIdeal.S1x8192x8192 ![1, 2] Cert.ReferenceIdeal.Gen.bcast_S8192x8192_S1x8192x8192_1_2
        (Host.dotGeneral (F := Ideal) (φ₁ := .f32) (φ₂ := .f32) Cert.ReferenceIdeal.dot_S8192x128_S128x8192_S8192x8192_1_0_0_1_n_n none z
            (transpose Cert.ReferenceIdeal.S128x8192 [1, 0] z Cert.ReferenceIdeal.Gen.transposes_S8192x128_S128x8192_1_0))⟩]
    Cert.ReferenceIdeal.Gen.concatenates_S1x8192x8192_S1x8192x8192_S2x8192x8192_d0

/-- Entry `(v, i, j)` of it pairs row `i` with row `j`, whichever half `v` is. -/
theorem P2_apply (z : Cert.ReferenceIdeal.S8192x128.Idx → Elt Ideal .f32) (v : Fin 2) (i j : Fin 8192) :
    P2 z (ix3 v i j) = ∑ k : Fin 128, z (ix2 i k) * z (ix2 j k) :=
  ref_tail z v i j

/-- Slab 1 of the output block holds the later store's tile. -/
theorem res2_slab1 (x0 x1 : Vec Ideal S1024x128 .f32) (p q : Fin 1024) :
    res2 (F := Ideal) x0 x1 (ix3 (1 : Fin 2) p q) = ∑ k : Fin 128, x0 (ix2 p k) * x1 (ix2 q k) := by
  unfold res2
  simp only [View.ld_unit_zero (S := S1024x128) zero2]
  have e : (ix3 (1 : Fin 2) p q : S2x1024x1024.Idx) = ro2b.emb (ix3 (0 : Fin 1) p q) :=
    funext fun a => Fin.ext (by
      match a with
      | ⟨0, _⟩ => rfl
      | ⟨1, _⟩ => show p.val = 0 + 1 * p.val; omega
      | ⟨2, _⟩ => show q.val = 0 + 1 * q.val; omega)
  rw [e, View.canon_cons_emb]
  exact k2_pay3_read x0 x1 p q

/-- Slab 0 holds the earlier store's tile: the later store does not reach it. -/
theorem res2_slab0 (x0 x1 : Vec Ideal S1024x128 .f32) (p q : Fin 1024) :
    res2 (F := Ideal) x0 x1 (ix3 (0 : Fin 2) p q) = ∑ k : Fin 128, x0 (ix2 p k) * x1 (ix2 q k) := by
  unfold res2
  simp only [View.ld_unit_zero (S := S1024x128) zero2]
  have hn : (ix3 (0 : Fin 2) p q : S2x1024x1024.Idx) ∉ ro2b.set := by
    intro h
    rw [Rect.mem_set_unit] at h
    have h0 : ((![1, 0, 0] : Fin 3 → ℕ) 0) ≤ ((0 : Fin 2) : ℕ) := (h (0 : Fin 3)).1
    exact absurd h0 (by decide)
  have e : (ix3 (0 : Fin 2) p q : S2x1024x1024.Idx) = ro2a.emb (ix3 (0 : Fin 1) p q) :=
    funext fun a => Fin.ext (by
      match a with
      | ⟨0, _⟩ => rfl
      | ⟨1, _⟩ => show p.val = 0 + 1 * p.val; omega
      | ⟨2, _⟩ => show q.val = 0 + 1 * q.val; omega)
  rw [View.canon_cons_of_not_mem (⟨ro2b, k2_pay3 (F := Ideal) x0 x1⟩ : View.Piece (Elt Ideal) S2x1024x1024 .f32) _ hn, e,
    View.canon_cons_emb]
  exact k2_pay2_read x0 x1 p q

/-- A tile of the product with the transpose: when `x0` is row block `r0` and `x1` row block `r1` of `Z`, the output
    block at `j` is the reference's term at `(j₀, r0 · 1024 + j₁, r1 · 1024 + j₂)`. -/
theorem tile2 (x0 x1 : Vec Ideal S1024x128 .f32) (Z : S8192x128.Idx → Elt Ideal .f32) (r0 r1 : Nat)
    (hx0 : ∀ (y : S1024x128.Idx) (u : S8192x128.Idx), (u 0).val = r0 * 1024 + (y 0).val → (u 1).val = (y 1).val → x0 y = Z u)
    (hx1 : ∀ (y : S1024x128.Idx) (u : S8192x128.Idx), (u 0).val = r1 * 1024 + (y 0).val → (u 1).val = (y 1).val → x1 y = Z u)
    (j : S2x1024x1024.Idx) (i : S2x8192x8192.Idx) (hi0 : (i 0).val = (j 0).val)
    (hi1 : (i 1).val = r0 * 1024 + (j 1).val) (hi2 : (i 2).val = r1 * 1024 + (j 2).val) :
    res2 (F := Ideal) x0 x1 j = P2 Z i := by
  obtain ⟨v, p, q, rfl⟩ : ∃ (v : Fin 2) (p q : Fin 1024), j = ix3 v p q := ⟨j 0, j 1, j 2, eq_ix3 j⟩
  obtain ⟨v', i1, i2, rfl⟩ : ∃ (v' : Fin 2) (i1 i2 : Fin 8192), i = ix3 v' i1 i2 := ⟨i 0, i 1, i 2, eq_ix3 i⟩
  rw [P2_apply]
  have hsum : ∑ k : Fin 128, x0 (ix2 p k) * x1 (ix2 q k) = ∑ k : Fin 128, Z (ix2 i1 k) * Z (ix2 i2 k) :=
    Finset.sum_congr rfl fun k _ => by rw [hx0 (ix2 p k) (ix2 i1 k) hi1 rfl, hx1 (ix2 q k) (ix2 i2 k) hi2 rfl]
  match v with
  | ⟨0, _⟩ => exact (res2_slab0 x0 x1 p q).trans hsum
  | ⟨1, _⟩ => exact (res2_slab1 x0 x1 p q).trans hsum

/-- Where the three windows' blocks sit at each grid point `(i, j)`: the left input's row block is `i`, the right
    input's is `j`, and the output's block is `(0, i, j)`. -/
theorem places2 : ∀ t : Fin cfg2.N, win2_0.index t (0 : Fin 2) = win2_2.index t (1 : Fin 3)
    ∧ win2_0.index t (1 : Fin 2) = 0
    ∧ win2_1.index t (0 : Fin 2) = win2_2.index t (2 : Fin 3)
    ∧ win2_1.index t (1 : Fin 2) = 0
    ∧ win2_2.index t (0 : Fin 3) = 0
    ∧ win2_2.index t (1 : Fin 3) ≤ 7
    ∧ win2_2.index t (2 : Fin 3) ≤ 7 :=
  (by decide +kernel : ∀ t : Fin grid2.N, _)

/-- Every tile of the output is some point's. -/
theorem onto2 : ∀ q0 q1 : Fin 8, ∃ t : Fin cfg2.N, win2_2.index t = ![0, q0.val, q1.val] :=
  (by decide +kernel : ∀ q0 q1 : Fin 8, ∃ t : Fin grid2.N, win2_2.index t = ![0, q0.val, q1.val])

/-- What point `t` writes back is block `t` of the reference's term of the array the call finds. -/
theorem flushed2_eq (c : Dev nD) (t : Fin cfg2.N) :
    (dat2 V c).flushed 2 t = ((cfg2.win 2).blk t).view.read (Elt Ideal) (P2 (V c main_v29)) := by
  show (cfg2.win 2).cut (grid2.coords t) ((dat2 V c).after 2 t) = _
  rw [after2_2]
  obtain ⟨e0, e1, e2, e3, e4, e5, e6⟩ := places2 t
  funext j
  show res2 (F := Ideal) (blk2 V c 0 t) (blk2 V c 1 t) j = P2 (V c main_v29) (((cfg2.win 2).blk t).view.emb j)
  refine tile2 (blk2 V c 0 t) (blk2 V c 1 t) (V c main_v29) (win2_2.index t (1 : Fin 3)) (win2_2.index t (2 : Fin 3))
    ?_ ?_ j _ ?_ ?_ ?_
  · intro y u h0 h1
    show V c main_v29 (((cfg2.win 0).blk t).view.emb y) = V c main_v29 u
    refine congrArg (V c main_v29) (funext fun a => Fin.ext ?_)
    match a with
    | ⟨0, _⟩ => show win2_0.index t (0 : Fin 2) * 1024 + 1 * (y 0).val = (u 0).val; omega
    | ⟨1, _⟩ => show win2_0.index t (1 : Fin 2) * 128 + 1 * (y 1).val = (u 1).val; omega
  · intro y u h0 h1
    show V c main_v29 (((cfg2.win 1).blk t).view.emb y) = V c main_v29 u
    refine congrArg (V c main_v29) (funext fun a => Fin.ext ?_)
    match a with
    | ⟨0, _⟩ => show win2_1.index t (0 : Fin 2) * 1024 + 1 * (y 0).val = (u 0).val; omega
    | ⟨1, _⟩ => show win2_1.index t (1 : Fin 2) * 128 + 1 * (y 1).val = (u 1).val; omega
  · show win2_2.index t (0 : Fin 3) * 2 + 1 * (j 0).val = (j 0).val; omega
  · show win2_2.index t (1 : Fin 3) * 1024 + 1 * (j 1).val = win2_2.index t (1 : Fin 3) * 1024 + (j 1).val; omega
  · show win2_2.index t (2 : Fin 3) * 1024 + 1 * (j 2).val = win2_2.index t (2 : Fin 3) * 1024 + (j 2).val; omega

/-- An index of the output array is in point `t`'s block iff each coordinate is in the block's range on its axis. -/
theorem mem_blk2 (t : Fin cfg2.N) (i : S2x8192x8192.Idx) :
    i ∈ ((cfg2.win 2).blk t).view.set ↔ ∀ a : Fin 3, win2_2.index t a * S2x1024x1024.size a ≤ (i a).val
      ∧ (i a).val < win2_2.index t a * S2x1024x1024.size a + S2x1024x1024.size a := by
  show i ∈ ((View.whole main_v30).slice (win2_2.rect t)).set ↔ _
  rw [View.set_slice_whole, Rect.mem_set_unit]
  exact Iff.rfl

/-- The sixty-four tiles cover the output array: entry `(v, r, s)` is in tile `(r / 1024, s / 1024)`. -/
theorem covered2 (i : S2x8192x8192.Idx) :
    ∃ t : Fin cfg2.N, (cfg2.win 2).flush t = true ∧ i ∈ ((cfg2.win 2).blk t).view.set := by
  have hi0 : (i 0).val < 2 := (i 0).isLt
  have hi1 : (i 1).val < 8192 := (i 1).isLt
  have hi2 : (i 2).val < 8192 := (i 2).isLt
  obtain ⟨t, ht⟩ := onto2 ⟨(i 1).val / 1024, by omega⟩ ⟨(i 2).val / 1024, by omega⟩
  have q0 : win2_2.index t (0 : Fin 3) = 0 := congrFun ht 0
  have q1 : win2_2.index t (1 : Fin 3) = (i 1).val / 1024 := congrFun ht 1
  have q2 : win2_2.index t (2 : Fin 3) = (i 2).val / 1024 := congrFun ht 2
  refine ⟨t, flush2_2 t, ?_⟩
  rw [mem_blk2]
  intro a
  match a with
  | ⟨0, _⟩ =>
    show win2_2.index t (0 : Fin 3) * 2 ≤ (i 0).val ∧ (i 0).val < win2_2.index t (0 : Fin 3) * 2 + 2
    omega
  | ⟨1, _⟩ =>
    show win2_2.index t (1 : Fin 3) * 1024 ≤ (i 1).val ∧ (i 1).val < win2_2.index t (1 : Fin 3) * 1024 + 1024
    omega
  | ⟨2, _⟩ =>
    show win2_2.index t (2 : Fin 3) * 1024 ≤ (i 2).val ∧ (i 2).val < win2_2.index t (2 : Fin 3) * 1024 + 1024
    omega

/-- The array call 2 leaves is the reference's term of the array it finds. -/
theorem array2 (c : Dev nD) : (dat2 V c).arrAt 2 cfg2.N = P2 (V c main_v29) :=
  (dat2 V c).arrAt_eq_of_cover 2 (P2 (V c main_v29)) (fun t _ => flushed2_eq V c t) covered2

end Cert.KernelIdeal.TileValue

end
-- ==== Proof.KIValue.lean ====
import proofs.«135062_j65274912964665_1_alg».proof.Proof.KIKept
import proofs.«135062_j65274912964665_1_alg».proof.Proof.Layers
import Idealize.ShloMosaic.PureOps.Ideal
import proofs.«135062_j65274912964665_1_alg».proof.Proof.TileValue

/-!
# What the idealized kernel program returns

Reading the final contents `W7` of the two result buffers back through the boundaries: Pallas call 0 leaves the product
`x · W1`; the first host stretch its aggregation; call 1 the product with `W2`; the second host stretch the embedding
`z`; call 2 the stacked Gram matrix of `z`. These are the reference's own terms of the argument arrays.
-/

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.KernelIdeal.Body Cert.KernelIdeal.Run Cert.KernelIdeal.Kept
open Cert.Layers

variable (m : (ℓ : Loc nD τ sig) → Buf (Elt Ideal) ℓ) (ρ : Dev nD → PrngReg)

local notation "hT0" => Cert.KernelIdeal.TileValue.array0
local notation "hT1" => Cert.KernelIdeal.TileValue.array1
local notation "hT2" => Cert.KernelIdeal.TileValue.array2

/-- Pallas call 0 leaves the product of the first two arguments. -/
theorem support₁ (c : Dev nD) : W1 m ρ c (Proc.devRef .tc main_v0)
    = Host.dotGeneral (F := Ideal) (φ₁ := .f32) (φ₂ := .f32) Cert.ReferenceIdeal.dot_S8192x512_S512x256_S8192x256_1_0_0_1_n_n none
        (m ((c : Thread nD τ).loc main_arg0)) (m ((c : Thread nD τ).loc main_arg1)) :=
  (W1_arr m ρ c 2).trans (hT0 (V0 m ρ) c)

/-- The first host stretch leaves its aggregation. -/
theorem hidden (c : Dev nD) : W3 m ρ c (Proc.devRef .tc main_v14)
    = aggregate₁ (Host.dotGeneral (F := Ideal) (φ₁ := .f32) (φ₂ := .f32) Cert.ReferenceIdeal.dot_S8192x512_S512x256_S8192x256_1_0_0_1_n_n none
        (m ((c : Thread nD τ).loc main_arg0)) (m ((c : Thread nD τ).loc main_arg1)))
        (m ((c : Thread nD τ).loc main_arg3)) (m ((c : Thread nD τ).loc main_arg4)) (m ((c : Thread nD τ).loc main_arg5)) := by
  refine (host₁ (W1 m ρ c)).trans ?_
  rw [support₁ m ρ c, W1_of_ne m ρ c main_arg3 (by decide), W1_of_ne m ρ c main_arg4 (by decide), W1_of_ne m ρ c main_arg5 (by decide)]

/-- Pallas call 1 leaves the product of the hidden layer with the third argument. -/
theorem support₂ (c : Dev nD) : W4 m ρ c (Proc.devRef .tc main_v15)
    = Host.dotGeneral (F := Ideal) (φ₁ := .f32) (φ₂ := .f32) Cert.ReferenceIdeal.dot_S8192x256_S256x128_S8192x128_1_0_0_1_n_n none
        (aggregate₁ (Host.dotGeneral (F := Ideal) (φ₁ := .f32) (φ₂ := .f32) Cert.ReferenceIdeal.dot_S8192x512_S512x256_S8192x256_1_0_0_1_n_n none
          (m ((c : Thread nD τ).loc main_arg0)) (m ((c : Thread nD τ).loc main_arg1)))
          (m ((c : Thread nD τ).loc main_arg3)) (m ((c : Thread nD τ).loc main_arg4)) (m ((c : Thread nD τ).loc main_arg5)))
        (m ((c : Thread nD τ).loc main_arg2)) := by
  refine (W4_arr m ρ c 2).trans ((hT1 (V3 m ρ) c).trans ?_)
  have e2 : V3 m ρ c main_arg2 = m ((c : Thread nD τ).loc main_arg2) :=
    (W3_of m ρ c main_arg2 (by decide) (by decide)).trans ((W1_of_ne m ρ c main_arg2 (by decide)).trans rfl)
  have e1 := hidden m ρ c
  show Host.dotGeneral (F := Ideal) (φ₁ := .f32) (φ₂ := .f32) Cert.ReferenceIdeal.dot_S8192x256_S256x128_S8192x128_1_0_0_1_n_n none (W3 m ρ c (Proc.devRef .tc main_v14)) (V3 m ρ c main_arg2) = _
  rw [e1, e2]

/-- THE FIRST RESULT: the embedding, as the reference computes it from the argument arrays. -/
theorem out0 (c : Dev nD) : W7 m ρ c (Proc.devRef .tc main_v29)
    = refEmbedding (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W7_of_ne m ρ c main_v29 (by decide)).trans ((host₂ (W4 m ρ c)).trans ?_)
  rw [support₂ m ρ c,
    (W4_of_ne m ρ c main_arg3 (by decide)).trans ((W3_of m ρ c main_arg3 (by decide) (by decide)).trans ((W1_of_ne m ρ c main_arg3 (by decide)).trans rfl)),
    (W4_of_ne m ρ c main_arg4 (by decide)).trans ((W3_of m ρ c main_arg4 (by decide) (by decide)).trans ((W1_of_ne m ρ c main_arg4 (by decide)).trans rfl)),
    (W4_of_ne m ρ c main_arg5 (by decide)).trans ((W3_of m ρ c main_arg5 (by decide) (by decide)).trans ((W1_of_ne m ρ c main_arg5 (by decide)).trans rfl))]
  rfl

/-- THE SECOND RESULT: the decoder applied to that embedding. -/
theorem out1 (c : Dev nD) : W7 m ρ c (Proc.devRef .tc main_v30)
    = decode (F := Ideal) (refEmbedding (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  refine (W7_out m ρ c).trans ((hT2 (V6 m ρ) c).trans ?_)
  have e := out0 m ρ c
  rw [W7_of_ne m ρ c main_v29 (by decide)] at e
  show decode (F := Ideal) (W6 m ρ c (Proc.devRef .tc main_v29)) = _
  rw [e]

end Cert.KernelIdeal.Result

end
-- ==== Proof.lean ====
/-
  A two-layer graph convolution with an inner-product decoder, as three Pallas calls among host operations, against
  the same computation written with the host's matrix products.

  The kernel program: `support₁ = x · W1` (a Pallas call, one 1024-row block of `x` per grid point against the whole of
  `W1`); `h = max(0, Σ_e vals[e] · support₁[cols[e]] scattered to row rows[e])` on the host; `support₂ = h · W2` (a
  Pallas call of the same shape); `z` the same aggregation of `support₂`; and a third Pallas call that, at grid point
  `(i, j)`, multiplies the `i`-th 1024-row block of `z` by the transpose of the `j`-th and stores the tile into both
  slabs of the [2, 8192, 8192] result. Inside the calls the operands are narrowed to a shorter float format before the
  product; on the extended reals that narrowing is the identity and a product accumulated into zero is the plain sum
  over the contracted axis, so each call's blocks are blocks of the host's `dot_general` of the whole arrays, and the
  blocks tile the result. The host operations between the calls are, operation for operation, the reference's. Hence
  both programs return `z` and the Gram matrix of `z` stacked twice, as the same terms of the argument arrays; no
  algebraic law beyond reading a matrix product at an index is used, and the inputs' finiteness is not needed.

  The three frames: each kernel program (at the word level and idealized) is run as seven items — call, host
  stretch, rectifier, call, host stretch, rectifier, call — by the pipeline rule for each call; the third call reads
  one array through two windows, each holding half of it. The reference's frame is its run with the results dropped.
  The idealization rewrote no operation, so there is nothing to preserve.
-/
import proofs.«135062_j65274912964665_1_alg».proof.Defs
import proofs.«135062_j65274912964665_1_alg».proof.Proof.Gen.Kernel
import proofs.«135062_j65274912964665_1_alg».proof.Proof.Gen.KernelIdeal
import proofs.«135062_j65274912964665_1_alg».proof.Proof.Gen.ReferenceIdeal
import proofs.«135062_j65274912964665_1_alg».proof.Proof.Gen.Pre_finite_inputs
import proofs.«135062_j65274912964665_1_alg».proof.Proof.Gen.ReferenceIdeal.Run
import proofs.«135062_j65274912964665_1_alg».proof.Proof.Gen.ReferenceIdeal.Read
import proofs.«135062_j65274912964665_1_alg».proof.Proof.KKept
import proofs.«135062_j65274912964665_1_alg».proof.Proof.KIKept
import proofs.«135062_j65274912964665_1_alg».proof.Proof.KIValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Kept.frame m ρ
theorem frame_ki : Cert.frame_KernelIdeal := fun m ρ _ => Cert.KernelIdeal.Kept.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the embedding and its stacked Gram matrix, as the reference's terms of the
    argument arrays: the kernel program by reading its final buffers back through its seven items, the reference by its
    run; the arguments agree by hypothesis. -/
theorem algebraic : Cert.algebraic_KernelIdeal_ReferenceIdeal := by
  intro m ρ m' ρ' _ hagree
  refine ⟨fun c => Cert.KernelIdeal.Run.W7 m ρ c (Proc.devRef .tc Cert.KernelIdeal.main_v29),
    fun c => Cert.KernelIdeal.Run.W7 m ρ c (Proc.devRef .tc Cert.KernelIdeal.main_v30), ?_, ?_⟩
  · exact (θ_run Cert.KernelIdeal.defs _ _).mono (fun r h c =>
      ⟨h c _ (Cert.KernelIdeal.Run.mem_uc Cert.KernelIdeal.main_v29 (by decide)),
       h c _ (Cert.KernelIdeal.Run.mem_uc Cert.KernelIdeal.main_v30 (by decide)),
       (h c _ (Cert.KernelIdeal.Run.mem_uc Cert.KernelIdeal.main_arg0 (by decide))).trans (Cert.KernelIdeal.Kept.W7_main_arg0 m ρ c),
       (h c _ (Cert.KernelIdeal.Run.mem_uc Cert.KernelIdeal.main_arg1 (by decide))).trans (Cert.KernelIdeal.Kept.W7_main_arg1 m ρ c),
       (h c _ (Cert.KernelIdeal.Run.mem_uc Cert.KernelIdeal.main_arg2 (by decide))).trans (Cert.KernelIdeal.Kept.W7_main_arg2 m ρ c),
       (h c _ (Cert.KernelIdeal.Run.mem_uc Cert.KernelIdeal.main_arg3 (by decide))).trans (Cert.KernelIdeal.Kept.W7_main_arg3 m ρ c),
       (h c _ (Cert.KernelIdeal.Run.mem_uc Cert.KernelIdeal.main_arg4 (by decide))).trans (Cert.KernelIdeal.Kept.W7_main_arg4 m ρ c),
       (h c _ (Cert.KernelIdeal.Run.mem_uc Cert.KernelIdeal.main_arg5 (by decide))).trans (Cert.KernelIdeal.Kept.W7_main_arg5 m ρ c)⟩)
      (Cert.KernelIdeal.Run.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.Layers.ref_out0 m' c).trans ?_
      rw [(hagree c).1, (hagree c).2.1, (hagree c).2.2.1, (hagree c).2.2.2.1, (hagree c).2.2.2.2.1, (hagree c).2.2.2.2.2]
      exact (Cert.KernelIdeal.Result.out0 m ρ c).symm
    · refine (Cert.Layers.ref_out1 m' c).trans ?_
      rw [(hagree c).1, (hagree c).2.1, (hagree c).2.2.1, (hagree c).2.2.2.1, (hagree c).2.2.2.2.1, (hagree c).2.2.2.2.2]
      exact (Cert.KernelIdeal.Result.out1 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
